-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 62
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x64, .bf16⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .bf16⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .bf16⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .bf16⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S1x64, .f32⟩
  | .hbm, ⟨60, _⟩ => ⟨S1x64, .f32⟩
  | .hbm, ⟨61, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v41) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .i1⟩
  | .hbm, ⟨48, _⟩ => ⟨S_, .f32⟩
  | .hbm, ⟨49, _⟩ => ⟨S100000x64, .f32⟩
  | .hbm, ⟨50, _⟩ => ⟨S100000x64, .i1⟩
  | .hbm, ⟨51, _⟩ => ⟨S_, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S1x1600000, .i32⟩
  | .hbm, ⟨61, _⟩ => ⟨S1600000, .i32⟩
  | .hbm, ⟨62, _⟩ => ⟨S1x1600000, .i32⟩
  | .hbm, ⟨63, _⟩ => ⟨S1600000, .i32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S_, .f32⟩
  | .hbm, ⟨78, _⟩ => ⟨S1600000, .f32⟩
  | .hbm, ⟨79, _⟩ => ⟨S_, .f32⟩
  | .hbm, ⟨80, _⟩ => ⟨S100000, .f32⟩
  | .hbm, ⟨81, _⟩ => ⟨S1600000x1, .i32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .i1⟩
  | .hbm, ⟨98, _⟩ => ⟨S_, .f32⟩
  | .hbm, ⟨99, _⟩ => ⟨S100000x64, .f32⟩
  | .hbm, ⟨100, _⟩ => ⟨S100000x64, .i1⟩
  | .hbm, ⟨101, _⟩ => ⟨S_, .f32⟩
  | .hbm, ⟨102, _⟩ => ⟨S_, .f32⟩
  | .hbm, ⟨103, _⟩ => ⟨S100000x64, .f32⟩
  | .hbm, ⟨104, _⟩ => ⟨S100000x64, .f32⟩
  | .hbm, ⟨105, _⟩ => ⟨S100000x64, .f32⟩
  | .hbm, ⟨106, _⟩ => ⟨S_, .f32⟩
  | .hbm, ⟨107, _⟩ => ⟨S100000x64, .f32⟩
  | .hbm, ⟨108, _⟩ => ⟨S100000x64, .f32⟩
  | .hbm, ⟨109, _⟩ => ⟨S100000x64, .f32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_cst_1 : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_v4 : Ref sig .tc := ⟨.hbm, 54, rfl⟩
abbrev main_call0_v5 : Ref sig .tc := ⟨.hbm, 55, rfl⟩
abbrev main_call0_cst_2 : Ref sig .tc := ⟨.hbm, 56, rfl⟩
abbrev main_call0_v6 : Ref sig .tc := ⟨.hbm, 57, rfl⟩
abbrev main_call0_v7 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_4 : Ref sig .tc := ⟨.hbm, 64, rfl⟩
abbrev main_v34 : Ref sig .tc := ⟨.hbm, 65, rfl⟩
abbrev main_v35 : Ref sig .tc := ⟨.hbm, 66, rfl⟩
abbrev main_c_5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_6 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_7 : Ref sig .tc := ⟨.hbm, 77, rfl⟩
abbrev main_v44 : Ref sig .tc := ⟨.hbm, 78, rfl⟩
abbrev main_cst_8 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_9 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_call1_cst : Ref sig .tc := ⟨.hbm, 95, rfl⟩
abbrev main_call1_v0 : Ref sig .tc := ⟨.hbm, 96, rfl⟩
abbrev main_call1_v1 : Ref sig .tc := ⟨.hbm, 97, rfl⟩
abbrev main_call1_cst_0 : Ref sig .tc := ⟨.hbm, 98, rfl⟩
abbrev main_call1_v2 : Ref sig .tc := ⟨.hbm, 99, rfl⟩
abbrev main_call1_v3 : Ref sig .tc := ⟨.hbm, 100, rfl⟩
abbrev main_call1_cst_1 : Ref sig .tc := ⟨.hbm, 101, rfl⟩
abbrev main_call1_call0_v0 : Ref sig .tc := ⟨.hbm, 102, rfl⟩
abbrev main_call1_call0_v1 : Ref sig .tc := ⟨.hbm, 103, rfl⟩
abbrev main_call1_v4 : Ref sig .tc := ⟨.hbm, 104, rfl⟩
abbrev main_call1_v5 : Ref sig .tc := ⟨.hbm, 105, rfl⟩
abbrev main_call1_cst_2 : Ref sig .tc := ⟨.hbm, 106, rfl⟩
abbrev main_call1_v6 : Ref sig .tc := ⟨.hbm, 107, rfl⟩
abbrev main_call1_v7 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibTypedRefCasts.lean ====
/-
  A typed buffer reference carries the tensor type of the value it holds; contents are moved to the buffer's own type
  and back along that equation.  Moving there and back changes nothing.
-/
import Idealize.ShloMosaic.Lib.StableHlo

noncomputable section

namespace Cert.ReferenceIdeal.Results

open Idealize.ShloMosaic Idealize.ShloMosaic.StableHlo

/-- Contents moved to a typed reference's buffer type and back are unchanged. -/
theorem ofBuf_toBuf {Val : EltTy → Type} {sg : RefSig} {T : BufTy} (x : TRef sg T) (v : T.Contents Val) :
    x.ofBuf (x.toBuf v) = v := by
  obtain ⟨r, rfl, _, _⟩ := x
  rfl

end Cert.ReferenceIdeal.Results

end
-- ==== Proof.RefRun.lean ====
/-
  The run of the idealized reference program, read back as one closed term of its arguments.

  The program is a straight line of host tensor operations: two graph-convolution layers (a mean over
  incoming edges, two dense maps and a bias), each followed by the exponential linear unit, and a final
  dense map with bias.  The line is cut into five stretches (layer, unit, layer, unit, output map); the
  value a stretch leaves in its result buffer is a function of the buffers it reads, and no stretch writes
  an argument buffer.  Composing the five gives the result buffer after the whole line.
-/
import proofs.«137379_j57294863728943_2_alg».proof.ReferenceIdeal
import proofs.«137379_j57294863728943_2_alg».proof.Proof.Gen.ReferenceIdeal
import Idealize.ShloMosaic.Lib.StableHlo.Run
import proofs.«137379_j57294863728943_2_alg».proof.Proof.LibTypedRefCasts

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- The first layer's output buffer and the second layer's, as typed references (the unit's operand). -/
abbrev a28 : TRef sig ⟨S100000x64, .f32⟩ := .of main_v28
abbrev a58 : TRef sig ⟨S100000x64, .f32⟩ := .of main_v58

/-- The first layer: its 35 operations, in order. -/
abbrev opsA : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_1 (constant S_ .f32 0x3F800000#32),
    StableHlo.unary main_cst_1 main_v14 (broadcastInDim S1600000 ![] bcast_S_S1600000 : (⟨S_, .f32⟩ : BufTy).Contents (Elt F) → (⟨S1600000, .f32⟩ : BufTy).Contents (Elt F)),
    StableHlo.nullary main_cst_2 (constant S_ .f32 0x00000000#32),
    StableHlo.unary main_cst_2 main_v15 (broadcastInDim S100000 ![] bcast_S_S100000 : (⟨S_, .f32⟩ : BufTy).Contents (Elt F) → (⟨S100000, .f32⟩ : BufTy).Contents (Elt F)),
    StableHlo.unary main_v3 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x3F800000#32),
    StableHlo.unary main_cst_3 main_v18 (broadcastInDim S100000 ![] bcast_S_S100000 : (⟨S_, .f32⟩ : BufTy).Contents (Elt F) → (⟨S100000, .f32⟩ : BufTy).Contents (Elt F)),
    StableHlo.binary main_v17 main_v18 main_v19 (maximumf : (⟨S100000, .f32⟩ : BufTy).Contents (Elt F) → (⟨S100000, .f32⟩ : BufTy).Contents (Elt F) → (⟨S100000, .f32⟩ : BufTy).Contents (Elt F)),
    StableHlo.unary main_v19 main_v20 (broadcastInDim S100000x1 ![0] bcast_S100000_S100000x1_0 : (⟨S100000, .f32⟩ : BufTy).Contents (Elt F) → (⟨S100000x1, .f32⟩ : BufTy).Contents (Elt F)),
    StableHlo.unary main_v20 main_v21 (broadcastInDim S100000x64 ![0, 1] bcast_S100000x1_S100000x64_0_1 : (⟨S100000x1, .f32⟩ : BufTy).Contents (Elt F) → (⟨S100000x64, .f32⟩ : BufTy).Contents (Elt F)),
    StableHlo.binary main_v13 main_v21 main_v22 (Host.divf : (⟨S100000x64, .f32⟩ : BufTy).Contents (Elt F) → (⟨S100000x64, .f32⟩ : BufTy).Contents (Elt F) → (⟨S100000x64, .f32⟩ : BufTy).Contents (Elt F)),
    StableHlo.binary main_v22 main_arg2 main_v23 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v24 (broadcastInDim S1x64 ![1] bcast_S64_S1x64_1 : (⟨S64, .f32⟩ : BufTy).Contents (Elt F) → (⟨S1x64, .f32⟩ : BufTy).Contents (Elt F)),
    StableHlo.unary main_v24 main_v25 (broadcastInDim S100000x64 ![0, 1] bcast_S1x64_S100000x64_0_1 : (⟨S1x64, .f32⟩ : BufTy).Contents (Elt F) → (⟨S100000x64, .f32⟩ : BufTy).Contents (Elt F)),
    StableHlo.binary main_v23 main_v25 main_v26 (addf : (⟨S100000x64, .f32⟩ : BufTy).Contents (Elt F) → (⟨S100000x64, .f32⟩ : BufTy).Contents (Elt F) → (⟨S100000x64, .f32⟩ : BufTy).Contents (Elt F)),
    StableHlo.binary main_arg0 main_arg4 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v26 main_v27 main_v28 (addf : (⟨S100000x64, .f32⟩ : BufTy).Contents (Elt F) → (⟨S100000x64, .f32⟩ : BufTy).Contents (Elt F) → (⟨S100000x64, .f32⟩ : BufTy).Contents (Elt F)) ]

/-- The unit after the first layer: the 15 operations of its body, the two selects' bodies in place. -/
abbrev opsE0 : List (HloOp τ sig (Elt F)) :=
  [ StableHlo.TRef.nullary main_call0.cst (constant S_ .f32 0x00000000#32),
    StableHlo.TRef.unary main_call0.cst main_call0.v0 (broadcastInDim S100000x64 ![] bcast_S_S100000x64),
    StableHlo.TRef.binary a28 main_call0.v0 main_call0.v1 (cmpf .ogt),
    StableHlo.TRef.nullary main_call0.cst_0 (constant S_ .f32 0x00000000#32),
    StableHlo.TRef.unary main_call0.cst_0 main_call0.v2 (broadcastInDim S100000x64 ![] bcast_S_S100000x64),
    StableHlo.TRef.binary a28 main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x64 ![] bcast_S_S100000x64),
    StableHlo.TRef.ternary main_call0.v3 main_call0.call0.v1 a28 main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x64 ![] bcast_S_S100000x64),
    StableHlo.TRef.binary main_call0.v6 main_call0.v5 main_call0.v7 mulf,
    StableHlo.TRef.ternary main_call0.v1 a28 main_call0.v7 main_call0.call1.v0 select ]

/-- The second layer: its 35 operations, in order. -/
abbrev opsB : List (HloOp τ sig (Elt F)) :=
  [ StableHlo.unary main_arg1 main_v30 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v30 main_v31 rfl shapeCasts_S1x1600000_S1600000,
    StableHlo.unary main_arg1 main_v32 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v32 main_v33 rfl shapeCasts_S1x1600000_S1600000,
    StableHlo.nullary main_c_4 (constantI S_ 32 0#32),
    StableHlo.unary main_c_4 main_v34 (broadcastInDim S1600000 ![] bcast_S_S1600000 : (⟨S_, .i32⟩ : BufTy).Contents (Elt F) → (⟨S1600000, .i32⟩ : BufTy).Contents (Elt F)),
    StableHlo.binary main_v31 main_v34 main_v35 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v36 (broadcastInDim S1600000 ![] bcast_S_S1600000 : (⟨S_, .i32⟩ : BufTy).Contents (Elt F) → (⟨S1600000, .i32⟩ : BufTy).Contents (Elt F)),
    StableHlo.binary main_v31 main_v36 main_v37 (addi : (⟨S1600000, .i32⟩ : BufTy).Contents (Elt F) → (⟨S1600000, .i32⟩ : BufTy).Contents (Elt F) → (⟨S1600000, .i32⟩ : BufTy).Contents (Elt F)),
    StableHlo.ternary main_v35 main_v37 main_v31 main_v38 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v38 main_v39 (broadcastInDim S1600000x1 ![0] bcast_S1600000_S1600000x1_0 : (⟨S1600000, .i32⟩ : BufTy).Contents (Elt F) → (⟨S1600000x1, .i32⟩ : BufTy).Contents (Elt F)),
    StableHlo.binary main_v29 main_v39 main_v40 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_6 (constant S_ .f32 0x00000000#32),
    StableHlo.unary main_cst_6 main_v41 (broadcastInDim S100000x64 ![] bcast_S_S100000x64 : (⟨S_, .f32⟩ : BufTy).Contents (Elt F) → (⟨S100000x64, .f32⟩ : BufTy).Contents (Elt F)),
    StableHlo.unary main_v33 main_v42 (broadcastInDim S1600000x1 ![0] bcast_S1600000_S1600000x1_0 : (⟨S1600000, .i32⟩ : BufTy).Contents (Elt F) → (⟨S1600000x1, .i32⟩ : BufTy).Contents (Elt F)),
    StableHlo.ternary main_v41 main_v42 main_v40 main_v43 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_7 (constant S_ .f32 0x3F800000#32),
    StableHlo.unary main_cst_7 main_v44 (broadcastInDim S1600000 ![] bcast_S_S1600000 : (⟨S_, .f32⟩ : BufTy).Contents (Elt F) → (⟨S1600000, .f32⟩ : BufTy).Contents (Elt F)),
    StableHlo.nullary main_cst_8 (constant S_ .f32 0x00000000#32),
    StableHlo.unary main_cst_8 main_v45 (broadcastInDim S100000 ![] bcast_S_S100000 : (⟨S_, .f32⟩ : BufTy).Contents (Elt F) → (⟨S100000, .f32⟩ : BufTy).Contents (Elt F)),
    StableHlo.unary main_v33 main_v46 (broadcastInDim S1600000x1 ![0] bcast_S1600000_S1600000x1_0 : (⟨S1600000, .i32⟩ : BufTy).Contents (Elt F) → (⟨S1600000x1, .i32⟩ : BufTy).Contents (Elt F)),
    StableHlo.ternary main_v45 main_v46 main_v44 main_v47 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_9 (constant S_ .f32 0x3F800000#32),
    StableHlo.unary main_cst_9 main_v48 (broadcastInDim S100000 ![] bcast_S_S100000 : (⟨S_, .f32⟩ : BufTy).Contents (Elt F) → (⟨S100000, .f32⟩ : BufTy).Contents (Elt F)),
    StableHlo.binary main_v47 main_v48 main_v49 (maximumf : (⟨S100000, .f32⟩ : BufTy).Contents (Elt F) → (⟨S100000, .f32⟩ : BufTy).Contents (Elt F) → (⟨S100000, .f32⟩ : BufTy).Contents (Elt F)),
    StableHlo.unary main_v49 main_v50 (broadcastInDim S100000x1 ![0] bcast_S100000_S100000x1_0 : (⟨S100000, .f32⟩ : BufTy).Contents (Elt F) → (⟨S100000x1, .f32⟩ : BufTy).Contents (Elt F)),
    StableHlo.unary main_v50 main_v51 (broadcastInDim S100000x64 ![0, 1] bcast_S100000x1_S100000x64_0_1 : (⟨S100000x1, .f32⟩ : BufTy).Contents (Elt F) → (⟨S100000x64, .f32⟩ : BufTy).Contents (Elt F)),
    StableHlo.binary main_v43 main_v51 main_v52 (Host.divf : (⟨S100000x64, .f32⟩ : BufTy).Contents (Elt F) → (⟨S100000x64, .f32⟩ : BufTy).Contents (Elt F) → (⟨S100000x64, .f32⟩ : BufTy).Contents (Elt F)),
    StableHlo.binary main_v52 main_arg5 main_v53 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S100000x64 ![0, 1] bcast_S1x64_S100000x64_0_1 : (⟨S1x64, .f32⟩ : BufTy).Contents (Elt F) → (⟨S100000x64, .f32⟩ : BufTy).Contents (Elt F)),
    StableHlo.binary main_v53 main_v55 main_v56 (addf : (⟨S100000x64, .f32⟩ : BufTy).Contents (Elt F) → (⟨S100000x64, .f32⟩ : BufTy).Contents (Elt F) → (⟨S100000x64, .f32⟩ : BufTy).Contents (Elt F)),
    StableHlo.binary main_v29 main_arg7 main_v57 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v56 main_v57 main_v58 (addf : (⟨S100000x64, .f32⟩ : BufTy).Contents (Elt F) → (⟨S100000x64, .f32⟩ : BufTy).Contents (Elt F) → (⟨S100000x64, .f32⟩ : BufTy).Contents (Elt F)) ]

/-- The unit after the second layer. -/
abbrev opsE1 : List (HloOp τ sig (Elt F)) :=
  [ StableHlo.TRef.nullary main_call1.cst (constant S_ .f32 0x00000000#32),
    StableHlo.TRef.unary main_call1.cst main_call1.v0 (broadcastInDim S100000x64 ![] bcast_S_S100000x64),
    StableHlo.TRef.binary a58 main_call1.v0 main_call1.v1 (cmpf .ogt),
    StableHlo.TRef.nullary main_call1.cst_0 (constant S_ .f32 0x00000000#32),
    StableHlo.TRef.unary main_call1.cst_0 main_call1.v2 (broadcastInDim S100000x64 ![] bcast_S_S100000x64),
    StableHlo.TRef.binary a58 main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x64 ![] bcast_S_S100000x64),
    StableHlo.TRef.ternary main_call1.v3 main_call1.call0.v1 a58 main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x64 ![] bcast_S_S100000x64),
    StableHlo.TRef.binary main_call1.v6 main_call1.v5 main_call1.v7 mulf,
    StableHlo.TRef.ternary main_call1.v1 a58 main_call1.v7 main_call1.call1.v0 select ]

/-- The output map: 4 operations. -/
abbrev opsC : List (HloOp τ sig (Elt F)) :=
  [ StableHlo.binary main_v59 main_arg8 main_v60 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S100000x64 ![0, 1] bcast_S1x64_S100000x64_0_1 : (⟨S1x64, .f32⟩ : BufTy).Contents (Elt F) → (⟨S100000x64, .f32⟩ : BufTy).Contents (Elt F)),
    StableHlo.binary main_v60 main_v62 main_v63 (addf : (⟨S100000x64, .f32⟩ : BufTy).Contents (Elt F) → (⟨S100000x64, .f32⟩ : BufTy).Contents (Elt F) → (⟨S100000x64, .f32⟩ : BufTy).Contents (Elt F)) ]

/-- The whole line. -/
abbrev ops : List (HloOp τ sig (Elt F)) := opsA ++ (opsE0 ++ (opsB ++ (opsE1 ++ opsC)))

/-! ## The result as a term of the arguments

Small definitions that mirror the program, each the printed operations composed. -/

/-- Row `k` of the edge table as a vector: the slice of that row, reshaped (`%1`, `%3`). -/
def row0 (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000
@[inherit_doc row0]
def row1 (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The source index of every edge (`%9`): row 0, a negative index wrapped by the row count, as a column. -/
def srcIdx (e : (⟨S2x1600000, .i32⟩ : BufTy).Contents (Elt F)) : (⟨S1600000x1, .i32⟩ : BufTy).Contents (Elt F) :=
  broadcastInDim S1600000x1 ![0] bcast_S1600000_S1600000x1_0
    (select (cmpi .slt (row0 e) (broadcastInDim S1600000 ![] bcast_S_S1600000 (constantI S_ 32 0#32)))
      (addi (row0 e) (broadcastInDim S1600000 ![] bcast_S_S1600000 (constantI S_ 32 100000#32)))
      (row0 e))

/-- The destination index of every edge (`%12`): row 1, as a column. -/
def dstIdx (e : (⟨S2x1600000, .i32⟩ : BufTy).Contents (Elt F)) : (⟨S1600000x1, .i32⟩ : BufTy).Contents (Elt F) :=
  broadcastInDim S1600000x1 ![0] bcast_S1600000_S1600000x1_0 (row1 e)

/-- The all-zero and all-one node-feature tables. -/
def zeros : (⟨S100000x64, .f32⟩ : BufTy).Contents (Elt F) := broadcastInDim S100000x64 ![] bcast_S_S100000x64 (constant S_ .f32 0x00000000#32)
@[inherit_doc zeros]
def ones : (⟨S100000x64, .f32⟩ : BufTy).Contents (Elt F) := broadcastInDim S100000x64 ![] bcast_S_S100000x64 (constant S_ .f32 0x3F800000#32)

/-- The sum over incoming edges of the source node's features (`%13`): gather the sources' rows, scatter-add them at the destinations. -/
def nbrSum (e : (⟨S2x1600000, .i32⟩ : BufTy).Contents (Elt F)) (f : (⟨S100000x64, .f32⟩ : BufTy).Contents (Elt F)) : (⟨S100000x64, .f32⟩ : BufTy).Contents (Elt F) :=
  Host.scatterAdd scatter_S100000x64_S1600000x1_S1600000x64_1_0_0_1 (zeros (F := F)) (dstIdx e) (Host.gather gather_S100000x64_S1600000x1_S1600000x64_1_0_n_n_0_1_164 f (srcIdx e))

/-- The number of incoming edges of every node, at least one (`%19`). -/
def cntMax (e : (⟨S2x1600000, .i32⟩ : BufTy).Contents (Elt F)) : (⟨S100000, .f32⟩ : BufTy).Contents (Elt F) :=
  maximumf
    (Host.scatterAdd scatter_S100000_S1600000x1_S1600000_n_0_0_1
      (broadcastInDim S100000 ![] bcast_S_S100000 (constant S_ .f32 0x00000000#32) : (⟨S100000, .f32⟩ : BufTy).Contents (Elt F)) (dstIdx e)
      (broadcastInDim S1600000 ![] bcast_S_S1600000 (constant S_ .f32 0x3F800000#32) : (⟨S1600000, .f32⟩ : BufTy).Contents (Elt F)))
    (broadcastInDim S100000 ![] bcast_S_S100000 (constant S_ .f32 0x3F800000#32))

/-- One layer (`%28`): the mean over incoming edges through one dense map, a bias, and the node's own features through another. -/
def conv (e : (⟨S2x1600000, .i32⟩ : BufTy).Contents (Elt F)) (f : (⟨S100000x64, .f32⟩ : BufTy).Contents (Elt F)) (Wl : (⟨S64x64, .f32⟩ : BufTy).Contents (Elt F)) (b : (⟨S64, .f32⟩ : BufTy).Contents (Elt F))
    (Wr : (⟨S64x64, .f32⟩ : BufTy).Contents (Elt F)) : (⟨S100000x64, .f32⟩ : BufTy).Contents (Elt F) :=
  addf
    (addf
      (Host.dotGeneral dot_S100000x64_S64x64_S100000x64_1_0_0_1_n_n none
        (Host.divf (nbrSum e f)
          (broadcastInDim S100000x64 ![0, 1] bcast_S100000x1_S100000x64_0_1
            (broadcastInDim S100000x1 ![0] bcast_S100000_S100000x1_0 (cntMax e))))
        Wl)
      (broadcastInDim S100000x64 ![0, 1] bcast_S1x64_S100000x64_0_1 (broadcastInDim S1x64 ![1] bcast_S64_S1x64_1 b)))
    (Host.dotGeneral dot_S100000x64_S64x64_S100000x64_1_0_0_1_n_n none f Wr)

/-- The exponential linear unit (`%29`): `v` where positive, `1 · (exp − 1)` of (`0` where positive, else `v`) elsewhere. -/
def elu (v : (⟨S100000x64, .f32⟩ : BufTy).Contents (Elt F)) : (⟨S100000x64, .f32⟩ : BufTy).Contents (Elt F) :=
  select (cmpf .ogt v zeros) v
    (mulf ones
      (Host.expm1
        (select (cmpf .ogt v zeros)
          (broadcastInDim S100000x64 ![] bcast_S_S100000x64 (id (constant S_ .f32 0x00000000#32 : (⟨S_, .f32⟩ : BufTy).Contents (Elt F)))) v)))

/-- The program's result (`%63`): two layers, each through the unit, then the output map and its bias. -/
def result (x : (⟨S100000x64, .f32⟩ : BufTy).Contents (Elt F)) (e : (⟨S2x1600000, .i32⟩ : BufTy).Contents (Elt F))
    (W1l : (⟨S64x64, .f32⟩ : BufTy).Contents (Elt F)) (b1 : (⟨S64, .f32⟩ : BufTy).Contents (Elt F)) (W1r : (⟨S64x64, .f32⟩ : BufTy).Contents (Elt F))
    (W2l : (⟨S64x64, .f32⟩ : BufTy).Contents (Elt F)) (b2 : (⟨S64, .f32⟩ : BufTy).Contents (Elt F)) (W2r : (⟨S64x64, .f32⟩ : BufTy).Contents (Elt F))
    (Wlin : (⟨S64x64, .f32⟩ : BufTy).Contents (Elt F)) (blin : (⟨S64, .f32⟩ : BufTy).Contents (Elt F)) : (⟨S100000x64, .f32⟩ : BufTy).Contents (Elt F) :=
  addf (Host.dotGeneral dot_S100000x64_S64x64_S100000x64_1_0_0_1_n_n none (elu (conv e (elu (conv e x W1l b1 W1r)) W2l b2 W2r)) Wlin)
    (broadcastInDim S100000x64 ![0, 1] bcast_S1x64_S100000x64_0_1 (broadcastInDim S1x64 ![1] bcast_S64_S1x64_1 blin))

/-! ## What the line touches and what it leaves alone -/

theorem scopedRefs_eq : (Finset.univ.filter fun b : Ref sig .tc => b.isScoped) = ∅ := by decide
theorem scopedSems_eq : (Finset.univ.filter fun sm : SemLoc sig => sm.isScoped .tc) = ∅ := by decide

/-- Every buffer the line writes: one per operation, in order. -/
abbrev W : List (Ref sig .tc) :=
  [ main_v0, main_v1, main_v2, main_v3, main_c, main_v4, main_v5, main_c_0,
    main_v6, main_v7, main_v8, main_v9, main_v10, main_cst, main_v11, main_v12,
    main_v13, main_cst_1, main_v14, main_cst_2, main_v15, main_v16, main_v17, main_cst_3,
    main_v18, main_v19, main_v20, main_v21, main_v22, main_v23, main_v24, main_v25,
    main_v26, main_v27, main_v28, main_call0.cst.ref, main_call0.v0.ref, main_call0.v1.ref, main_call0.cst_0.ref, main_call0.v2.ref,
    main_call0.v3.ref, main_call0.cst_1.ref, main_call0.call0.v0.ref, main_call0.call0.v1.ref, main_call0.call0.v2.ref, main_call0.v5.ref, main_call0.cst_2.ref, main_call0.v6.ref,
    main_call0.v7.ref, main_call0.call1.v0.ref, main_v30, main_v31, main_v32, main_v33, main_c_4, main_v34,
    main_v35, main_c_5, main_v36, main_v37, main_v38, main_v39, main_v40, main_cst_6,
    main_v41, main_v42, main_v43, main_cst_7, main_v44, main_cst_8, main_v45, main_v46,
    main_v47, main_cst_9, main_v48, main_v49, main_v50, main_v51, main_v52, main_v53,
    main_v54, main_v55, main_v56, main_v57, main_v58, main_call1.cst.ref, main_call1.v0.ref, main_call1.v1.ref,
    main_call1.cst_0.ref, main_call1.v2.ref, main_call1.v3.ref, main_call1.cst_1.ref, main_call1.call0.v0.ref, main_call1.call0.v1.ref, main_call1.call0.v2.ref, main_call1.v5.ref,
    main_call1.cst_2.ref, main_call1.v6.ref, main_call1.v7.ref, main_call1.call1.v0.ref, main_v60, main_v61, main_v62, main_v63 ]

/-- An operation whose one written buffer is a member of a list writes inside the list. -/
theorem writes_sub {L : List (Ref sig .tc)} {op : HloOp τ sig (Elt F)} (y : Ref sig .tc)
    (hw : op.writes = {Proc.devRef .tc y}) (hy : y ∈ L) :
    op.writes ⊆ (L.map (Proc.devRef (τ := τ) .tc)).toFinset := by
  rw [hw]
  exact Finset.singleton_subset_iff.mpr (List.mem_toFinset.mpr (List.mem_map.mpr ⟨y, hy, rfl⟩))

theorem opsA_sub : (opsA : List (HloOp τ sig (Elt F))).Forall fun op => op.bufs ⊆ tcRefs τ sig :=
  ⟨unary_bufs_sub .., reshape_bufs_sub .., unary_bufs_sub .., reshape_bufs_sub .., nullary_bufs_sub ..,
    unary_bufs_sub .., binary_bufs_sub .., nullary_bufs_sub .., unary_bufs_sub .., binary_bufs_sub ..,
    ternary_bufs_sub .., unary_bufs_sub .., binary_bufs_sub .., nullary_bufs_sub .., unary_bufs_sub ..,
    unary_bufs_sub .., ternary_bufs_sub .., nullary_bufs_sub .., unary_bufs_sub .., nullary_bufs_sub ..,
    unary_bufs_sub .., unary_bufs_sub .., ternary_bufs_sub .., nullary_bufs_sub .., unary_bufs_sub ..,
    binary_bufs_sub .., unary_bufs_sub .., unary_bufs_sub .., binary_bufs_sub .., binary_bufs_sub ..,
    unary_bufs_sub .., unary_bufs_sub .., binary_bufs_sub .., binary_bufs_sub .., binary_bufs_sub ..⟩
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩
set_option maxRecDepth 4096 in
theorem opsA_writes : (opsA : List (HloOp τ sig (Elt F))).Forall fun op => op.writes ⊆ (W.map (Proc.devRef (τ := τ) .tc)).toFinset :=
  ⟨writes_sub main_v0 rfl (by decide), writes_sub main_v1 rfl (by decide), writes_sub main_v2 rfl (by decide),
    writes_sub main_v3 rfl (by decide), writes_sub main_c rfl (by decide), writes_sub main_v4 rfl (by decide),
    writes_sub main_v5 rfl (by decide), writes_sub main_c_0 rfl (by decide), writes_sub main_v6 rfl (by decide),
    writes_sub main_v7 rfl (by decide), writes_sub main_v8 rfl (by decide), writes_sub main_v9 rfl (by decide),
    writes_sub main_v10 rfl (by decide), writes_sub main_cst rfl (by decide), writes_sub main_v11 rfl (by decide),
    writes_sub main_v12 rfl (by decide), writes_sub main_v13 rfl (by decide), writes_sub main_cst_1 rfl (by decide),
    writes_sub main_v14 rfl (by decide), writes_sub main_cst_2 rfl (by decide), writes_sub main_v15 rfl (by decide),
    writes_sub main_v16 rfl (by decide), writes_sub main_v17 rfl (by decide), writes_sub main_cst_3 rfl (by decide),
    writes_sub main_v18 rfl (by decide), writes_sub main_v19 rfl (by decide), writes_sub main_v20 rfl (by decide),
    writes_sub main_v21 rfl (by decide), writes_sub main_v22 rfl (by decide), writes_sub main_v23 rfl (by decide),
    writes_sub main_v24 rfl (by decide), writes_sub main_v25 rfl (by decide), writes_sub main_v26 rfl (by decide),
    writes_sub main_v27 rfl (by decide), writes_sub main_v28 rfl (by decide)⟩

theorem opsE0_sub : (opsE0 : List (HloOp τ sig (Elt F))).Forall fun op => op.bufs ⊆ tcRefs τ sig :=
  ⟨nullary_bufs_sub .., unary_bufs_sub .., binary_bufs_sub .., nullary_bufs_sub .., unary_bufs_sub ..,
    binary_bufs_sub .., nullary_bufs_sub .., unary_bufs_sub .., unary_bufs_sub .., ternary_bufs_sub ..,
    unary_bufs_sub .., nullary_bufs_sub .., unary_bufs_sub .., binary_bufs_sub .., ternary_bufs_sub ..⟩
theorem opsE0_fresh : (opsE0 : List (HloOp τ sig (Elt F))).Forall fun op => op.fresh = ∅ :=
  ⟨rfl, rfl, rfl, rfl, rfl, rfl, rfl, rfl, rfl, rfl, rfl, rfl, rfl, rfl, rfl⟩
set_option maxRecDepth 4096 in
theorem opsE0_writes : (opsE0 : List (HloOp τ sig (Elt F))).Forall fun op => op.writes ⊆ (W.map (Proc.devRef (τ := τ) .tc)).toFinset :=
  ⟨writes_sub (main_call0.cst.ref) rfl (by decide), writes_sub (main_call0.v0.ref) rfl (by decide), writes_sub (main_call0.v1.ref) rfl (by decide),
    writes_sub (main_call0.cst_0.ref) rfl (by decide), writes_sub (main_call0.v2.ref) rfl (by decide), writes_sub (main_call0.v3.ref) rfl (by decide),
    writes_sub (main_call0.cst_1.ref) rfl (by decide), writes_sub (main_call0.call0.v0.ref) rfl (by decide), writes_sub (main_call0.call0.v1.ref) rfl (by decide),
    writes_sub (main_call0.call0.v2.ref) rfl (by decide), writes_sub (main_call0.v5.ref) rfl (by decide), writes_sub (main_call0.cst_2.ref) rfl (by decide),
    writes_sub (main_call0.v6.ref) rfl (by decide), writes_sub (main_call0.v7.ref) rfl (by decide), writes_sub (main_call0.call1.v0.ref) rfl (by decide)⟩

theorem opsB_sub : (opsB : List (HloOp τ sig (Elt F))).Forall fun op => op.bufs ⊆ tcRefs τ sig :=
  ⟨unary_bufs_sub .., reshape_bufs_sub .., unary_bufs_sub .., reshape_bufs_sub .., nullary_bufs_sub ..,
    unary_bufs_sub .., binary_bufs_sub .., nullary_bufs_sub .., unary_bufs_sub .., binary_bufs_sub ..,
    ternary_bufs_sub .., unary_bufs_sub .., binary_bufs_sub .., nullary_bufs_sub .., unary_bufs_sub ..,
    unary_bufs_sub .., ternary_bufs_sub .., nullary_bufs_sub .., unary_bufs_sub .., nullary_bufs_sub ..,
    unary_bufs_sub .., unary_bufs_sub .., ternary_bufs_sub .., nullary_bufs_sub .., unary_bufs_sub ..,
    binary_bufs_sub .., unary_bufs_sub .., unary_bufs_sub .., binary_bufs_sub .., binary_bufs_sub ..,
    unary_bufs_sub .., unary_bufs_sub .., binary_bufs_sub .., binary_bufs_sub .., binary_bufs_sub ..⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩
set_option maxRecDepth 4096 in
theorem opsB_writes : (opsB : List (HloOp τ sig (Elt F))).Forall fun op => op.writes ⊆ (W.map (Proc.devRef (τ := τ) .tc)).toFinset :=
  ⟨writes_sub main_v30 rfl (by decide), writes_sub main_v31 rfl (by decide), writes_sub main_v32 rfl (by decide),
    writes_sub main_v33 rfl (by decide), writes_sub main_c_4 rfl (by decide), writes_sub main_v34 rfl (by decide),
    writes_sub main_v35 rfl (by decide), writes_sub main_c_5 rfl (by decide), writes_sub main_v36 rfl (by decide),
    writes_sub main_v37 rfl (by decide), writes_sub main_v38 rfl (by decide), writes_sub main_v39 rfl (by decide),
    writes_sub main_v40 rfl (by decide), writes_sub main_cst_6 rfl (by decide), writes_sub main_v41 rfl (by decide),
    writes_sub main_v42 rfl (by decide), writes_sub main_v43 rfl (by decide), writes_sub main_cst_7 rfl (by decide),
    writes_sub main_v44 rfl (by decide), writes_sub main_cst_8 rfl (by decide), writes_sub main_v45 rfl (by decide),
    writes_sub main_v46 rfl (by decide), writes_sub main_v47 rfl (by decide), writes_sub main_cst_9 rfl (by decide),
    writes_sub main_v48 rfl (by decide), writes_sub main_v49 rfl (by decide), writes_sub main_v50 rfl (by decide),
    writes_sub main_v51 rfl (by decide), writes_sub main_v52 rfl (by decide), writes_sub main_v53 rfl (by decide),
    writes_sub main_v54 rfl (by decide), writes_sub main_v55 rfl (by decide), writes_sub main_v56 rfl (by decide),
    writes_sub main_v57 rfl (by decide), writes_sub main_v58 rfl (by decide)⟩

theorem opsE1_sub : (opsE1 : List (HloOp τ sig (Elt F))).Forall fun op => op.bufs ⊆ tcRefs τ sig :=
  ⟨nullary_bufs_sub .., unary_bufs_sub .., binary_bufs_sub .., nullary_bufs_sub .., unary_bufs_sub ..,
    binary_bufs_sub .., nullary_bufs_sub .., unary_bufs_sub .., unary_bufs_sub .., ternary_bufs_sub ..,
    unary_bufs_sub .., nullary_bufs_sub .., unary_bufs_sub .., binary_bufs_sub .., ternary_bufs_sub ..⟩
theorem opsE1_fresh : (opsE1 : List (HloOp τ sig (Elt F))).Forall fun op => op.fresh = ∅ :=
  ⟨rfl, rfl, rfl, rfl, rfl, rfl, rfl, rfl, rfl, rfl, rfl, rfl, rfl, rfl, rfl⟩
set_option maxRecDepth 4096 in
theorem opsE1_writes : (opsE1 : List (HloOp τ sig (Elt F))).Forall fun op => op.writes ⊆ (W.map (Proc.devRef (τ := τ) .tc)).toFinset :=
  ⟨writes_sub (main_call1.cst.ref) rfl (by decide), writes_sub (main_call1.v0.ref) rfl (by decide), writes_sub (main_call1.v1.ref) rfl (by decide),
    writes_sub (main_call1.cst_0.ref) rfl (by decide), writes_sub (main_call1.v2.ref) rfl (by decide), writes_sub (main_call1.v3.ref) rfl (by decide),
    writes_sub (main_call1.cst_1.ref) rfl (by decide), writes_sub (main_call1.call0.v0.ref) rfl (by decide), writes_sub (main_call1.call0.v1.ref) rfl (by decide),
    writes_sub (main_call1.call0.v2.ref) rfl (by decide), writes_sub (main_call1.v5.ref) rfl (by decide), writes_sub (main_call1.cst_2.ref) rfl (by decide),
    writes_sub (main_call1.v6.ref) rfl (by decide), writes_sub (main_call1.v7.ref) rfl (by decide), writes_sub (main_call1.call1.v0.ref) rfl (by decide)⟩

theorem opsC_sub : (opsC : List (HloOp τ sig (Elt F))).Forall fun op => op.bufs ⊆ tcRefs τ sig :=
  ⟨binary_bufs_sub .., unary_bufs_sub .., unary_bufs_sub .., binary_bufs_sub ..⟩
theorem opsC_fresh : (opsC : List (HloOp τ sig (Elt F))).Forall fun op => op.fresh = ∅ :=
  ⟨rfl, rfl, rfl, rfl⟩
set_option maxRecDepth 4096 in
theorem opsC_writes : (opsC : List (HloOp τ sig (Elt F))).Forall fun op => op.writes ⊆ (W.map (Proc.devRef (τ := τ) .tc)).toFinset :=
  ⟨writes_sub main_v60 rfl (by decide), writes_sub main_v61 rfl (by decide), writes_sub main_v62 rfl (by decide),
    writes_sub main_v63 rfl (by decide)⟩

theorem ops_sub : (ops : List (HloOp τ sig (Elt F))).Forall fun op => op.bufs ⊆ tcRefs τ sig :=
  List.forall_append.mpr ⟨opsA_sub, List.forall_append.mpr ⟨opsE0_sub, List.forall_append.mpr ⟨opsB_sub, List.forall_append.mpr ⟨opsE1_sub, opsC_sub⟩⟩⟩⟩
theorem ops_fresh : (ops : List (HloOp τ sig (Elt F))).Forall fun op => op.fresh = ∅ :=
  List.forall_append.mpr ⟨opsA_fresh, List.forall_append.mpr ⟨opsE0_fresh, List.forall_append.mpr ⟨opsB_fresh, List.forall_append.mpr ⟨opsE1_fresh, opsC_fresh⟩⟩⟩⟩
theorem ops_writes : (ops : List (HloOp τ sig (Elt F))).Forall fun op => op.writes ⊆ (W.map (Proc.devRef (τ := τ) .tc)).toFinset :=
  List.forall_append.mpr ⟨opsA_writes, List.forall_append.mpr ⟨opsE0_writes, List.forall_append.mpr ⟨opsB_writes, List.forall_append.mpr ⟨opsE1_writes, opsC_writes⟩⟩⟩⟩

/-- A buffer the line does not write keeps its contents, through each stretch and through the whole line. -/
theorem frameA (r : Ref sig .tc) (hr : r ∉ W) (V : Valuation τ sig (Elt F)) : after opsA V (Proc.devRef .tc r) = V (Proc.devRef .tc r) :=
  after_of_writes_sub opsA V opsA_writes hr
theorem frameE0 (r : Ref sig .tc) (hr : r ∉ W) (V : Valuation τ sig (Elt F)) : after opsE0 V (Proc.devRef .tc r) = V (Proc.devRef .tc r) :=
  after_of_writes_sub opsE0 V opsE0_writes hr
theorem frameB (r : Ref sig .tc) (hr : r ∉ W) (V : Valuation τ sig (Elt F)) : after opsB V (Proc.devRef .tc r) = V (Proc.devRef .tc r) :=
  after_of_writes_sub opsB V opsB_writes hr
theorem frameE1 (r : Ref sig .tc) (hr : r ∉ W) (V : Valuation τ sig (Elt F)) : after opsE1 V (Proc.devRef .tc r) = V (Proc.devRef .tc r) :=
  after_of_writes_sub opsE1 V opsE1_writes hr
theorem frame (r : Ref sig .tc) (hr : r ∉ W) (V : Valuation τ sig (Elt F)) : after ops V (Proc.devRef .tc r) = V (Proc.devRef .tc r) :=
  after_of_writes_sub ops V ops_writes hr

/-! ## The program is the line -/

-- 104 binds re-associated: the rewrite under the chain recurses once per statement
set_option maxRecDepth 8192 in
set_option maxHeartbeats 4000000 in
/-- @main is the straight line: the functions' definitions unfolded at their calls, both sides are one chain of
    operation steps once sequencing is re-associated. -/
theorem main_eq (c : Dev nD) : main (F := F) c = seq ops := by
  simp only [main, main_part0, main_part1, fn_elu.body, fn_where.body, fn_where_0.body, seq, bind_assoc, pure_bind]
  rfl

/-! ## What each stretch leaves in its result buffer -/

/-- Two stretches run one after the other: the second runs from what the first leaves. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

set_option maxRecDepth 8192 in
set_option maxHeartbeats 4000000 in
/-- The first layer, from the node features, the edge table and its three parameters. -/
theorem A_val (V : Valuation τ sig (Elt F)) :
    after opsA V (main_v28 : DevRef τ sig)
      = conv (V (main_arg1 : DevRef τ sig)) (V (main_arg0 : DevRef τ sig)) (V (main_arg2 : DevRef τ sig)) (V (main_arg3 : DevRef τ sig)) (V (main_arg4 : DevRef τ sig)) := by
  after_results_simp
  rfl

set_option maxRecDepth 8192 in
set_option maxHeartbeats 4000000 in
/-- The unit applied to the first layer's output; a value moved to a typed buffer and back is itself. -/
theorem E0_val (V : Valuation τ sig (Elt F)) :
    after opsE0 V (main_v29 : DevRef τ sig) = elu (V (main_v28 : DevRef τ sig)) := by
  after_results_simp
  simp only [Results.ofBuf_toBuf]
  rfl

set_option maxRecDepth 8192 in
set_option maxHeartbeats 4000000 in
/-- The second layer, from the first unit's output, the edge table and its three parameters. -/
theorem B_val (V : Valuation τ sig (Elt F)) :
    after opsB V (main_v58 : DevRef τ sig)
      = conv (V (main_arg1 : DevRef τ sig)) (V (main_v29 : DevRef τ sig)) (V (main_arg5 : DevRef τ sig)) (V (main_arg6 : DevRef τ sig)) (V (main_arg7 : DevRef τ sig)) := by
  after_results_simp
  rfl

set_option maxRecDepth 8192 in
set_option maxHeartbeats 4000000 in
/-- The unit applied to the second layer's output. -/
theorem E1_val (V : Valuation τ sig (Elt F)) :
    after opsE1 V (main_v59 : DevRef τ sig) = elu (V (main_v58 : DevRef τ sig)) := by
  after_results_simp
  simp only [Results.ofBuf_toBuf]
  rfl

/-- The output map and its bias. -/
theorem C_val (V : Valuation τ sig (Elt F)) :
    after opsC V (main_v63 : DevRef τ sig)
      = addf (Host.dotGeneral dot_S100000x64_S64x64_S100000x64_1_0_0_1_n_n none (V (main_v59 : DevRef τ sig)) (V (main_arg8 : DevRef τ sig)))
          (broadcastInDim S100000x64 ![0, 1] bcast_S1x64_S100000x64_0_1 (broadcastInDim S1x64 ![1] bcast_S64_S1x64_1 (V (main_arg9 : DevRef τ sig)))) := by
  after_results_simp

/-- The five stretches composed: each reads its operand where the stretch before left it and the arguments
    where the launch put them, since no stretch writes an argument. -/
theorem out_eq (V : Valuation τ sig (Elt F)) :
    after ops V (main_v63 : DevRef τ sig)
      = result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  rw [show (ops : List (HloOp τ sig (Elt F))) = opsA ++ (opsE0 ++ (opsB ++ (opsE1 ++ opsC))) from rfl,
    after_append, after_append, after_append, after_append, C_val,
    E1_val, frameE1 main_arg8 (by decide), frameE1 main_arg9 (by decide),
    B_val, frameB main_arg8 (by decide), frameB main_arg9 (by decide),
    E0_val, frameE0 main_arg1 (by decide), frameE0 main_arg5 (by decide), frameE0 main_arg6 (by decide),
    frameE0 main_arg7 (by decide), frameE0 main_arg8 (by decide), frameE0 main_arg9 (by decide),
    A_val, frameA main_arg1 (by decide), frameA main_arg5 (by decide), frameA main_arg6 (by decide),
    frameA main_arg7 (by decide), frameA main_arg8 (by decide), frameA main_arg9 (by decide)]
  rfl

/-! ## The run -/

/-- On every device, for any float values, from any memory with zero counters: every weakly fair execution of
    @main terminates with the result buffer at `result` of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v63)
        = result (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v63).trans (out_eq _),
      (h c main_arg0).trans (frame main_arg0 (by decide) _),
      (h c main_arg1).trans (frame main_arg1 (by decide) _),
      (h c main_arg2).trans (frame main_arg2 (by decide) _),
      (h c main_arg3).trans (frame main_arg3 (by decide) _),
      (h c main_arg4).trans (frame main_arg4 (by decide) _),
      (h c main_arg5).trans (frame main_arg5 (by decide) _),
      (h c main_arg6).trans (frame main_arg6 (by decide) _),
      (h c main_arg7).trans (frame main_arg7 (by decide) _),
      (h c main_arg8).trans (frame main_arg8 (by decide) _),
      (h c main_arg9).trans (frame main_arg9 (by decide) _)⟩)
    (run_seq scopedRefs_eq scopedSems_eq defs main (fun _ => ops) main_eq (fun _ => ops_sub) m ρ
      (fun _ => List.forall_iff_forall_mem.mp ops_fresh))

end Cert.ReferenceIdeal.RefRun

end
-- ==== Proof.LibLayerLaws.lean ====
/-
  A two-layer mean-aggregation network on the extended reals, read entry by entry.

  One layer sends node features `x`, neighbour sums `s` and a per-node scale to
      elu ( (∑ₖ mean(p,k) · Wl(k,q)) + b(q) + ∑ₖ x(p,k) · Wr(k,q) ),       elu y = y for y > 0, eʸ − 1 otherwise,
  where the mean is written either as the quotient `s(p,k) / c(p)` or as the product `s(p,k) · (1 / c(p))`.
  The two spellings agree whenever `c(p) ≠ 0`: on the extended reals a quotient by a non-zero `c` IS the product with
  `c⁻¹`, and `1 / c = c⁻¹`.  Nothing here distributes a product over a sum, so no entry needs to be finite.

  Also here: the exponential-linear unit in the two spellings a program writes it in, and a matrix product
  `[a, k] × [k, b]` contracting the inner axis, read at `(p, q)` as a sum over `Fin k`.
-/
import Idealize.ShloMosaic.Lib.ValueIdx
import Idealize.ShloMosaic.PureOps.Ideal.Laws
import Idealize.ShloMosaic.PureOps.IdealRules

noncomputable section

open scoped BigOperators

namespace Cert.LayerLaws

open Idealize.ShloMosaic Idealize.ShloMosaic.ValueIdx

/-! ## The exponential-linear unit -/

/-- `elu y = y` above zero, `eʸ − 1` at and below it. -/
def elu1 (y : EReal) : EReal := if 0 < y then y else Ideal.exp y - 1

/-- The binary32 word of `1.0` denotes `1`. -/
theorem one_f32 : Ideal.ofBits .f32 0x3F800000#32 = 1 := IdealRules.sign_bit.ideal_onePat .f32

/-- "select (y > 0) y (exp (min y 0) − 1)" is `elu`: off the positive side `min y 0 = y`. -/
theorem elu_min_form (y : EReal) :
    Scalar.select (Ideal.cmp .ogt y (Ideal.ofBits .f32 0x00000000#32)) y
        (Ideal.exp (min y (Ideal.ofBits .f32 0x00000000#32)) - Ideal.ofBits .f32 0x3F800000#32) = elu1 y := by
  rw [Ideal.ofBits_zero_f32, one_f32]
  unfold elu1 Scalar.select Ideal.cmp
  by_cases h : 0 < y
  · simp [h]
  · have hy : y ≤ 0 := not_lt.mp h
    simp [h, min_eq_left hy]

/-- "select (y > 0) y (1 · expm1 (select (y > 0) 0 y))" is `elu` too: `expm1 z = eᶻ − 1` and `1 · z = z`. -/
theorem elu_expm1_form (y : EReal) :
    Scalar.select (Ideal.cmp .ogt y (Ideal.ofBits .f32 0x00000000#32)) y
        (Ideal.ofBits .f32 0x3F800000#32 *
          (Ideal.exp (Scalar.select (Ideal.cmp .ogt y (Ideal.ofBits .f32 0x00000000#32)) (Ideal.ofBits .f32 0x00000000#32) y) - 1))
      = elu1 y := by
  rw [Ideal.ofBits_zero_f32, one_f32]
  unfold elu1 Scalar.select Ideal.cmp
  by_cases h : 0 < y
  · simp [h]
  · simp [h]

/-! ## Quotient and reciprocal -/

/-- A product with the reciprocal `1 / c` of a non-zero `c` is the quotient by `c`. -/
theorem mul_one_div (a c : EReal) (hc : c ≠ 0) :
    a * Ideal.div (Ideal.ofBits .f32 0x3F800000#32) c = Ideal.div a c := by
  rw [one_f32]
  unfold Ideal.div
  rw [if_neg hc, if_neg hc, one_mul]

/-- A maximum with `1.0` is not zero. -/
theorem max_one_ne_zero (a : EReal) : max a (Ideal.ofBits .f32 0x3F800000#32) ≠ 0 := by
  rw [one_f32]
  exact ne_of_gt (lt_of_lt_of_le zero_lt_one (le_max_right a 1))

/-! ## The layer, entry by entry -/

/-- Arrays of extended reals of shape `[n, k]`. -/
abbrev Mat (n k : ℕ) := (⟨2, ![n, k]⟩ : Shape).Idx → EReal

variable {n : ℕ}

/-- A layer before its activation at `(p, q)`, the mean written as a product with a per-row scale `[n, 1]`
    and the bias as a row `[1, 64]`. -/
def preMul (x s : Mat n 64) (inv : Mat n 1) (Wl : Mat 64 64) (b : Mat 1 64) (Wr : Mat 64 64) (p : Fin n) (q : Fin 64) : EReal :=
  (∑ k : Fin 64, (s (ix2 p k) * inv (ix2 p (0 : Fin 1))) * Wl (ix2 k q)) + b (ix2 (0 : Fin 1) q)
    + ∑ k : Fin 64, x (ix2 p k) * Wr (ix2 k q)

/-- The layer with that spelling, as an array. -/
def layerMul (x s : Mat n 64) (inv : Mat n 1) (Wl : Mat 64 64) (b : Mat 1 64) (Wr : Mat 64 64) : Mat n 64 :=
  fun i => elu1 (preMul x s inv Wl b Wr ⟨(i 0).val, idx2_lt0 i⟩ ⟨(i 1).val, idx2_lt1 i⟩)

theorem layerMul_apply (x s : Mat n 64) (inv : Mat n 1) (Wl : Mat 64 64) (b : Mat 1 64) (Wr : Mat 64 64) (p : Fin n) (q : Fin 64) :
    layerMul x s inv Wl b Wr (ix2 p q) = elu1 (preMul x s inv Wl b Wr p q) := rfl

/-- A final linear map of an `[n, 64]` array at `(p, q)`, its bias a row `[1, 64]`. -/
def linRow (h : Mat n 64) (W : Mat 64 64) (b : Mat 1 64) : Mat n 64 :=
  fun i => (∑ k : Fin 64, h (ix2 (⟨(i 0).val, idx2_lt0 i⟩ : Fin n) k) * W (ix2 k (⟨(i 1).val, idx2_lt1 i⟩ : Fin 64)))
    + b (ix2 (0 : Fin 1) (⟨(i 1).val, idx2_lt1 i⟩ : Fin 64))

theorem linRow_apply (h : Mat n 64) (W : Mat 64 64) (b : Mat 1 64) (p : Fin n) (q : Fin 64) :
    linRow h W b (ix2 p q) = (∑ k : Fin 64, h (ix2 p k) * W (ix2 k q)) + b (ix2 (0 : Fin 1) q) := rfl

/-- A layer before its activation at `(p, q)`, the mean written as a quotient by a per-node count `[n]`
    and the bias as a vector `[64]`. -/
def preDiv (x s : Mat n 64) (c : (⟨1, ![n]⟩ : Shape).Idx → EReal) (Wl : Mat 64 64) (b : (⟨1, ![64]⟩ : Shape).Idx → EReal)
    (Wr : Mat 64 64) (p : Fin n) (q : Fin 64) : EReal :=
  (∑ k : Fin 64, Ideal.div (s (ix2 p k)) (c (ix1 p)) * Wl (ix2 k q)) + b (ix1 q)
    + ∑ k : Fin 64, x (ix2 p k) * Wr (ix2 k q)

/-- The two spellings of a layer agree when the scale is the reciprocal of a count that is nowhere zero and the
    bias row is the bias vector. -/
theorem preMul_eq_preDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64) (p : Fin n) (q : Fin 64)
    (hinv : inv (ix2 p (0 : Fin 1)) = Ideal.div (Ideal.ofBits .f32 0x3F800000#32) (c (ix1 p))) (hc : c (ix1 p) ≠ 0)
    (hb : b2 (ix2 (0 : Fin 1) q) = b (ix1 q)) :
    preMul x s inv Wl b2 Wr p q = preDiv x s c Wl b Wr p q := by
  unfold preMul preDiv
  rw [hinv, hb]
  refine congrArg (· + _) (congrArg (· + _) (Finset.sum_congr rfl fun k _ => ?_))
  rw [mul_one_div _ _ hc]

/-! ## A matrix product contracting the inner axis -/

variable {a k b : ℕ} {φ₁ φ₂ : FTy}

/-- The contraction sum of `[a, k] × [k, b]` at entry `(p, q)`, re-indexed by the contracted coordinate — from four
    facts about the dimension record's operand indices, which each use proves by evaluating its record. -/
theorem sum_inner (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

end Cert.LayerLaws

end
-- ==== Proof.LibRowLayout.lean ====
/-
  Rows of a matrix read by coordinates: what the layout and reduction operations of a row-wise computation give at
  an index written `ix1 p` / `ix2 p j`.

  • a vector `[a]` cast to a column `[a, 1]` reads, at `(p, u)`, entry `p`;
  • a column `[a, 1]` broadcast to `[a, b]` reads, at `(p, j)`, the column's entry `(p, 0)`;
  • the index obtained from the reduced index `p` by putting coordinate `k` back on axis 1 is `(p, k)`;
  • hence a reduction of an `[a, b]` array over axis 1, read at `p`, runs over the row `j ↦ (p, j)`: a sum for an
    `add` reduction (the kernel's and the host's), a fold of `max` for a `maximumf` one (the kernel's and the host's).
-/
import Idealize.ShloMosaic.Lib.ValueLayout
import Idealize.ShloMosaic.Lib.ValueIdx
import Idealize.ShloMosaic.PureOps.Ideal.Laws
import Idealize.ShloMosaic.PureOps.Reduce

noncomputable section

open scoped BigOperators

namespace Cert.RowLayout

open Idealize.ShloMosaic Idealize.ShloMosaic.ValueIdx

variable {α : Type}

/-! ## The column forms of a cast and a broadcast -/

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, j)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (j : Fin b) :
    broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

/-! ## A reduction over axis 1 runs over the row -/

/-- The reduced index `p` with column `k` put back on axis 1 is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The kernel's `add` reduction of an `[a, b]` array over axis 1, read at row `p`: the sum over the row. -/
theorem multiReduction_add_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] (⟨1, ![a]⟩ : Shape) src acc h hφ hacc (ix1 p) = ∑ j : Fin b, src (ix2 p j) := by
  refine (Ideal.multiReduction_add_single src acc h hφ hacc (ix1 p)).trans ?_
  exact Finset.sum_congr rfl fun k _ => congrArg src (lift_row h p k)

/-- The kernel's `maximumf` reduction of an `[a, b]` array over axis 1, read at row `p`: the fold of `max` from the
    accumulator's value over the row. -/
theorem multiReduction_maximumf_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) fun j => src (ix2 p j) := by
  refine (Ideal.multiReduction_maximumf_single src acc h hφ hacc (ix1 p)).trans ?_
  have hf : (src ∘ h.lift (ix1 p)) = fun k : Fin b => src (ix2 p k) :=
    funext fun k => congrArg src (lift_row h p k)
  exact congrArg (fun f => Finset.fold max (Ideal.ofBits .f32 acc) f (Finset.univ : Finset (Fin b))) hf

/-- The host's reduce with a maximum body of an `[a, b]` array over axis 1, read at row `p`: the fold of `max` from the
    initial value's element over the row. -/
theorem hostReduce_maximumf_row {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) fun j => x (ix2 p j) := by
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Cert.RowLayout

end
-- ==== Proof.TilePayload.lean ====
/-
  What one grid point of each kernel stores, entry by entry.

  A tile is 5000 rows.  The first kernel's stored value at `(r, q)` is the layer
      elu ( (∑ₖ (s(r,k) · inv(r)) · Wl(k,q)) + b(q) + ∑ₖ x(r,k) · Wr(k,q) )
  of the tile's rows of `x`, the neighbour sums `s` and the scale `inv`; the second kernel's is that layer followed by
  the final linear map  ∑ₖ h(r,k) · Wlin(k,q) + blin(q).  A change of float format is the identity on the extended reals,
  a product into the zero accumulator is the plain sum, the [5000, 1] scale and the [1, 64] bias rows are read at their
  one column / row.
-/
import proofs.«137379_j57294863728943_2_alg».proof.Proof.Gen.KernelIdeal.Skeleton
import proofs.«137379_j57294863728943_2_alg».proof.Proof.LibLayerLaws
import proofs.«137379_j57294863728943_2_alg».proof.Proof.LibRowLayout
import Idealize.ShloMosaic.Lib.Pipeline.Value
import Idealize.ShloMosaic.Lib.ValueLayout

noncomputable section

open scoped BigOperators

namespace Cert.KernelIdeal.Tile

open Cert.KernelIdeal Cert.KernelIdeal.Gen Cert.LayerLaws Cert.RowLayout
open Idealize.ShloMosaic Idealize.ShloMosaic.ValueIdx

/-- The tile product's dimension record. -/
abbrev D : DotDims S5000x64 S64x64 S5000x64 := dot_S5000x64_S64x64_S5000x64_1_0_0_1_n_n

/-- A tile product `[5000, 64] × [64, 64]` into the zero accumulator at `(r, q)`: the sum over the inner coordinate. -/
theorem tile_matmul_apply {φ₁ φ₂ : FTy} (lhs : FVec Ideal S5000x64 φ₁) (rhs : FVec Ideal S64x64 φ₂) (r : Fin 5000) (q : Fin 64) :
    matmul D none lhs rhs (constant (F := Ideal) S5000x64 .f32 0x00000000#32) (ix2 r q)
      = ∑ k : Fin 64, lhs (ix2 r k) * rhs (ix2 k q) :=
  (Ideal.matmul_constant_zero_apply D none lhs rhs (ix2 r q)).trans
    (sum_inner (a := 5000) (k := 64) (b := 64) D rfl rfl (fun _ _ => rfl) (fun _ _ => rfl) (fun _ _ => rfl) (fun _ _ => rfl) lhs rhs r q)

/-- The first kernel's value before its activation. -/
def pre0 (v0 : Vec Ideal S5000x64 .f32) (v2 : Vec Ideal S5000x1 .f32) (v6 : Vec Ideal S5000x64 .f32) (v9 : Vec Ideal S64x64 .f32)
    (v11 : Vec Ideal S64x64 .f32) (v14 : Vec Ideal S1x64 .f32) : FVec Ideal S5000x64 .f32 :=
  addf (addf (matmul D none (truncf .bf16 (mulf (shapeCast S5000x64 v0 shapeCasts_S5000x64_S5000x64)
      (broadcastTo S5000x64 (shapeCast S5000x1 v2 shapeCasts_S5000x1_S5000x1) broadcasts_S5000x1_S5000x64)) bitsLt_bf16_f32)
      (truncf .bf16 v9 bitsLt_bf16_f32) (constant S5000x64 .f32 0x00000000#32))
    (broadcastTo S5000x64 (shapeCast S1x64 v14 shapeCasts_S1x64_S1x64) broadcasts_S1x64_S5000x64))
    (matmul D none (truncf .bf16 v6 bitsLt_bf16_f32) (truncf .bf16 v11 bitsLt_bf16_f32) (constant S5000x64 .f32 0x00000000#32))

/-- Entry `(r, q)` of it is the layer's sum. -/
theorem pre0_apply (v0 : Vec Ideal S5000x64 .f32) (v2 : Vec Ideal S5000x1 .f32) (v6 : Vec Ideal S5000x64 .f32) (v9 : Vec Ideal S64x64 .f32)
    (v11 : Vec Ideal S64x64 .f32) (v14 : Vec Ideal S1x64 .f32) (r : Fin 5000) (q : Fin 64) :
    pre0 v0 v2 v6 v9 v11 v14 (ix2 r q) = preMul (n := 5000) v6 v0 v2 v9 v14 v11 r q := by
  unfold pre0 preMul
  rw [addf_apply, addf_apply, tile_matmul_apply, tile_matmul_apply, shapeCast_self, shapeCast_self, shapeCast_self,
    broadcastTo_1b_ab_apply]
  refine congrArg (· + _) (congrArg (· + _) (Finset.sum_congr rfl fun k _ => ?_))
  rw [truncf_apply, truncf_apply, mulf_apply, broadcastTo_a1_ab_apply]

/-- The first kernel's stored value is the layer of its tile. -/
theorem pay0_eq (v0 : Vec Ideal S5000x64 .f32) (v2 : Vec Ideal S5000x1 .f32) (v6 : Vec Ideal S5000x64 .f32) (v9 : Vec Ideal S64x64 .f32)
    (v11 : Vec Ideal S64x64 .f32) (v14 : Vec Ideal S1x64 .f32) :
    k0_pay1 v0 v2 v6 v9 v11 v14 = layerMul (n := 5000) v6 v0 v2 v9 v14 v11 := by
  funext i
  obtain ⟨r, q, rfl⟩ : ∃ (r : Fin 5000) (q : Fin 64), i = ix2 r q := ⟨i 0, i 1, eq_ix2 i⟩
  rw [layerMul_apply, ← pre0_apply]
  exact elu_min_form (pre0 v0 v2 v6 v9 v11 v14 (ix2 r q))

/-- The second kernel's hidden value: the layer of its tile, before the final linear map. -/
def hid1 (v0 : Vec Ideal S5000x64 .f32) (v2 : Vec Ideal S5000x1 .f32) (v6 : Vec Ideal S5000x64 .f32) (v10 : Vec Ideal S64x64 .f32)
    (v12 : Vec Ideal S64x64 .f32) (v15 : Vec Ideal S1x64 .f32) : FVec Ideal S5000x64 .f32 :=
  k0_pay1 v0 v2 v6 v10 v12 v15

/-- The second kernel's stored value is the final linear map of the layer of its tile. -/
theorem pay1_eq (v0 : Vec Ideal S5000x64 .f32) (v2 : Vec Ideal S5000x1 .f32) (v6 : Vec Ideal S5000x64 .f32) (v10 : Vec Ideal S64x64 .f32)
    (v12 : Vec Ideal S64x64 .f32) (v15 : Vec Ideal S1x64 .f32) (v30 : Vec Ideal S64x64 .f32) (v33 : Vec Ideal S1x64 .f32) :
    k1_pay1 v0 v2 v6 v10 v12 v15 v30 v33 = linRow (n := 5000) (layerMul (n := 5000) v6 v0 v2 v10 v15 v12) v30 v33 := by
  have hk : k1_pay1 v0 v2 v6 v10 v12 v15 v30 v33
      = addf (matmul D none (truncf .bf16 (k0_pay1 v0 v2 (shapeCast S5000x64 v6 shapeCasts_S5000x64_S5000x64) v10 v12 v15) bitsLt_bf16_f32)
          (truncf .bf16 v30 bitsLt_bf16_f32) (constant S5000x64 .f32 0x00000000#32))
        (broadcastTo S5000x64 (shapeCast S1x64 v33 shapeCasts_S1x64_S1x64) broadcasts_S1x64_S5000x64) := rfl
  rw [hk, shapeCast_self, pay0_eq]
  funext i
  obtain ⟨r, q, rfl⟩ : ∃ (r : Fin 5000) (q : Fin 64), i = ix2 r q := ⟨i 0, i 1, eq_ix2 i⟩
  rw [linRow_apply, addf_apply, tile_matmul_apply, shapeCast_self, broadcastTo_1b_ab_apply]
  rfl

end Cert.KernelIdeal.Tile

end
-- ==== Proof.LibLayerRows.lean ====
/-
  A layer is computed row by row: entry `(p, q)` reads row `p` of the features, of the neighbour sums and of the scale,
  and the whole weight matrices.  So a tile of rows `r ↦ e r` of the layer of whole arrays is the layer of the tiles:
  whenever tile arrays hold the rows `e r` of the whole arrays (and the weights are the same), the tile's layer at
  `(r, q)` is the whole layer at `(e r, q)`.  The same for the final linear map.
-/
import proofs.«137379_j57294863728943_2_alg».proof.Proof.LibLayerLaws

noncomputable section

open scoped BigOperators

namespace Cert.LayerLaws

open Idealize.ShloMosaic Idealize.ShloMosaic.ValueIdx

variable {n N : ℕ}

/-- The layer of a tile of rows is the tile of the layer. -/
theorem layerMul_rows (e : Fin n → Fin N) (x s : Mat n 64) (inv : Mat n 1) (wl : Mat 64 64) (b : Mat 1 64) (wr : Mat 64 64)
    (X S : Mat N 64) (INV : Mat N 1) (WL : Mat 64 64) (B : Mat 1 64) (WR : Mat 64 64)
    (hx : ∀ r k, x (ix2 r k) = X (ix2 (e r) k)) (hs : ∀ r k, s (ix2 r k) = S (ix2 (e r) k))
    (hinv : ∀ r, inv (ix2 r (0 : Fin 1)) = INV (ix2 (e r) (0 : Fin 1)))
    (hwl : wl = WL) (hb : b = B) (hwr : wr = WR) (r : Fin n) (q : Fin 64) :
    layerMul x s inv wl b wr (ix2 r q) = layerMul X S INV WL B WR (ix2 (e r) q) := by
  subst hwl hb hwr
  rw [layerMul_apply, layerMul_apply]
  unfold preMul
  rw [hinv r]
  refine congrArg elu1 ?_
  refine congrArg₂ (· + ·) (congrArg (· + _) (Finset.sum_congr rfl fun k _ => by rw [hs r k])) (Finset.sum_congr rfl fun k _ => by rw [hx r k])

/-- The final linear map of a tile of rows is the tile of the final linear map. -/
theorem linRow_rows (e : Fin n → Fin N) (h : Mat n 64) (w : Mat 64 64) (b : Mat 1 64)
    (H : Mat N 64) (W : Mat 64 64) (B : Mat 1 64)
    (hh : ∀ r k, h (ix2 r k) = H (ix2 (e r) k)) (hw : w = W) (hb : b = B) (r : Fin n) (q : Fin 64) :
    linRow h w b (ix2 r q) = linRow H W B (ix2 (e r) q) := by
  subst hw hb
  rw [linRow_apply, linRow_apply]
  exact congrArg (· + _) (Finset.sum_congr rfl fun k _ => by rw [hh r k])

end Cert.LayerLaws

end
-- ==== Proof.TileBlocks.lean ====
/-
  From tiles to arrays, for each of the two pipelined regions, at any contents `V` the region is entered with.

  Both regions run over 20 grid points; point `t` reads rows `5000·t … 5000·t + 4999` of the three row-tiled operands
  (features, neighbour sums, scale), the whole of each weight and bias operand, and writes back rows
  `5000·t … 5000·t + 4999` of the output.  What point `t` writes back is therefore block `t` of ONE whole-array function
  of the operand arrays — the layer (first region), the layer followed by the final linear map (second region) — because
  a layer is computed row by row.  The 20 blocks tile the 100000 rows, so after the region the output array IS that
  function.
-/
import proofs.«137379_j57294863728943_2_alg».proof.Proof.Gen.KernelIdeal.Frame
import proofs.«137379_j57294863728943_2_alg».proof.Proof.TilePayload
import proofs.«137379_j57294863728943_2_alg».proof.Proof.LibLayerRows
import Idealize.ShloMosaic.Lib.Pipeline.Value

set_option maxRecDepth 16384

noncomputable section

open scoped BigOperators

namespace Cert.KernelIdeal.Blocks

open Cert.KernelIdeal Cert.KernelIdeal.Gen Cert.KernelIdeal.Tile Cert.LayerLaws
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first region -/

/-- The first region's output as one function of its operand arrays: the layer. -/
def L0 (c : Dev nD) : Mat 100000 64 :=
  layerMul (n := 100000) (V c main_arg0) (V c main_v24) (V c main_v12) (V c main_arg2) (V c main_v25) (V c main_arg4)

/-- The printed index maps over the 20 points: the row-tiled windows move with the point, the others stay. -/
theorem idx0 : ∀ t : Fin cfg0.N, win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `r` of point `t`'s tile is row `5000·t + r` of the array. -/
def row (t : Fin 20) (r : Fin 5000) : Fin 100000 := ⟨t.val * 5000 + r.val, by have := t.isLt; have := r.isLt; omega⟩

theorem flushed0_eq (c : Dev nD) (t : Fin cfg0.N) :
    (dat0 V c).flushed 6 t = ((cfg0.win 6).blk t).view.read (Elt Ideal) (L0 V c) := by
  show (cfg0.win 6).cut (grid0.coords t) ((dat0 V c).after 6 t) = _
  rw [after0_6]
  unfold out0_6
  rw [View.canon_unit_zero hz]
  simp only [View.ld_unit_zero (S := S5000x64) hz, View.ld_unit_zero (S := S5000x1) hz, View.ld_unit_zero (S := S64x64) hz,
    View.ld_unit_zero (S := S1x64) hz]
  rw [pay0_eq]
  obtain ⟨e60, e61, e00, e01, e10, e11, e20, e21, e30, e31, e40, e41, e50, e51⟩ := idx0 t
  have ht : t.val < 20 := t.isLt
  funext j
  obtain ⟨r, q, rfl⟩ : ∃ (r : Fin 5000) (q : Fin 64), j = ix2 r q := ⟨j 0, j 1, eq_ix2 j⟩
  have hr : r.val < 5000 := r.isLt
  have hq : q.val < 64 := q.isLt
  have hemb : ((cfg0.win 6).blk t).view.emb (ix2 r q) = ix2 (row ⟨t.val, ht⟩ r) q := by
    funext a; apply Fin.ext
    match a with
    | ⟨0, _⟩ => show win0_6.index t (0 : Fin 2) * 5000 + 1 * r.val = t.val * 5000 + r.val; omega
    | ⟨1, _⟩ => show win0_6.index t (1 : Fin 2) * 64 + 1 * q.val = q.val; omega
  show layerMul (n := 5000) (iblk0 V c 0 t) (iblk0 V c 1 t) (iblk0 V c 2 t) (iblk0 V c 3 t) (iblk0 V c 4 t) (iblk0 V c 5 t) (ix2 r q)
    = L0 V c (((cfg0.win 6).blk t).view.emb (ix2 r q))
  rw [hemb]
  unfold L0
  refine layerMul_rows (row ⟨t.val, ht⟩) (iblk0 V c 0 t) (iblk0 V c 1 t) (iblk0 V c 2 t) (iblk0 V c 3 t) (iblk0 V c 4 t) (iblk0 V c 5 t)
    (V c main_arg0) (V c main_v24) (V c main_v12) (V c main_arg2) (V c main_v25) (V c main_arg4) ?_ ?_ ?_ ?_ ?_ ?_ r q
  · intro r' k
    show V c main_arg0 (((cfg0.win 0).blk t).view.emb (ix2 r' k)) = V c main_arg0 (ix2 (row ⟨t.val, ht⟩ r') k)
    refine congrArg _ (funext fun a => Fin.ext ?_)
    match a with
    | ⟨0, _⟩ => show win0_0.index t (0 : Fin 2) * 5000 + 1 * r'.val = t.val * 5000 + r'.val; omega
    | ⟨1, _⟩ => show win0_0.index t (1 : Fin 2) * 64 + 1 * k.val = k.val; omega
  · intro r' k
    show V c main_v24 (((cfg0.win 1).blk t).view.emb (ix2 r' k)) = V c main_v24 (ix2 (row ⟨t.val, ht⟩ r') k)
    refine congrArg _ (funext fun a => Fin.ext ?_)
    match a with
    | ⟨0, _⟩ => show win0_1.index t (0 : Fin 2) * 5000 + 1 * r'.val = t.val * 5000 + r'.val; omega
    | ⟨1, _⟩ => show win0_1.index t (1 : Fin 2) * 64 + 1 * k.val = k.val; omega
  · intro r'
    show V c main_v12 (((cfg0.win 2).blk t).view.emb (ix2 r' (0 : Fin 1))) = V c main_v12 (ix2 (row ⟨t.val, ht⟩ r') (0 : Fin 1))
    refine congrArg _ (funext fun a => Fin.ext ?_)
    match a with
    | ⟨0, _⟩ => show win0_2.index t (0 : Fin 2) * 5000 + 1 * r'.val = t.val * 5000 + r'.val; omega
    | ⟨1, _⟩ => show win0_2.index t (1 : Fin 2) * 1 + 1 * 0 = 0; omega
  · funext i
    show V c main_arg2 (((cfg0.win 3).blk t).view.emb i) = V c main_arg2 i
    refine congrArg _ (funext fun a => Fin.ext ?_)
    match a with
    | ⟨0, _⟩ => show win0_3.index t (0 : Fin 2) * 64 + 1 * (i 0).val = (i 0).val; omega
    | ⟨1, _⟩ => show win0_3.index t (1 : Fin 2) * 64 + 1 * (i 1).val = (i 1).val; omega
  · funext i
    show V c main_v25 (((cfg0.win 4).blk t).view.emb i) = V c main_v25 i
    refine congrArg _ (funext fun a => Fin.ext ?_)
    match a with
    | ⟨0, _⟩ => show win0_4.index t (0 : Fin 2) * 1 + 1 * (i 0).val = (i 0).val; omega
    | ⟨1, _⟩ => show win0_4.index t (1 : Fin 2) * 64 + 1 * (i 1).val = (i 1).val; omega
  · funext i
    show V c main_arg4 (((cfg0.win 5).blk t).view.emb i) = V c main_arg4 i
    refine congrArg _ (funext fun a => Fin.ext ?_)
    match a with
    | ⟨0, _⟩ => show win0_5.index t (0 : Fin 2) * 64 + 1 * (i 0).val = (i 0).val; omega
    | ⟨1, _⟩ => show win0_5.index t (1 : Fin 2) * 64 + 1 * (i 1).val = (i 1).val; omega

/-- An index is in point `t`'s output block iff each coordinate is in the block's range. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v26).slice (win0_6.rect t)).set ↔ _
  rw [View.set_slice_whole, Rect.mem_set_unit]
  exact Iff.rfl

/-- Every row lies in the block of the point `row / 5000`. -/
theorem cover0 (i : S100000x64.Idx) : ∃ t : Fin cfg0.N, (cfg0.win 6).flush t = true ∧ i ∈ ((cfg0.win 6).blk t).view.set := by
  have hi0 : (i 0).val < 100000 := idx2_lt0 i
  have hi1 : (i 1).val < 64 := idx2_lt1 i
  let t : Fin cfg0.N := ⟨(i 0).val / 5000, by rw [show cfg0.N = 20 from N_0]; omega⟩
  obtain ⟨e60, e61, -⟩ := idx0 t
  have e60' : win0_6.index t (0 : Fin 2) = (i 0).val / 5000 := e60
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- After the first region its output array is the layer of its operand arrays. -/
theorem final0 (c : Dev nD) : (dat0 V c).arrAt 6 cfg0.N = L0 V c :=
  (dat0 V c).arrAt_eq_of_cover 6 (L0 V c) (fun t _ => flushed0_eq V c t) (cover0)

/-! ## The second region -/

/-- The second region's output as one function of its operand arrays: the layer, then the final linear map. -/
def L1 (c : Dev nD) : Mat 100000 64 :=
  linRow (n := 100000)
    (layerMul (n := 100000) (V c main_v26) (V c main_v38) (V c main_v12) (V c main_arg5) (V c main_v39) (V c main_arg7))
    (V c main_arg8) (V c main_v40)

/-- The printed index maps over the 20 points: the row-tiled windows move with the point, the others stay. -/
theorem idx1 : ∀ t : Fin cfg1.N, win1_8.index t (0 : Fin 2) = t.val ∧ win1_8.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem flushed1_eq (c : Dev nD) (t : Fin cfg1.N) :
    (dat1 V c).flushed 8 t = ((cfg1.win 8).blk t).view.read (Elt Ideal) (L1 V c) := by
  show (cfg1.win 8).cut (grid1.coords t) ((dat1 V c).after 8 t) = _
  rw [after1_8]
  unfold out1_8
  rw [View.canon_unit_zero hz]
  simp only [View.ld_unit_zero (S := S5000x64) hz, View.ld_unit_zero (S := S5000x1) hz, View.ld_unit_zero (S := S64x64) hz,
    View.ld_unit_zero (S := S1x64) hz]
  rw [pay1_eq]
  obtain ⟨e80, e81, e00, e01, e10, e11, e20, e21, e30, e31, e40, e41, e50, e51, e60, e61, e70, e71⟩ := idx1 t
  have ht : t.val < 20 := t.isLt
  funext j
  obtain ⟨r, q, rfl⟩ : ∃ (r : Fin 5000) (q : Fin 64), j = ix2 r q := ⟨j 0, j 1, eq_ix2 j⟩
  have hr : r.val < 5000 := r.isLt
  have hq : q.val < 64 := q.isLt
  have hemb : ((cfg1.win 8).blk t).view.emb (ix2 r q) = ix2 (row ⟨t.val, ht⟩ r) q := by
    funext a; apply Fin.ext
    match a with
    | ⟨0, _⟩ => show win1_8.index t (0 : Fin 2) * 5000 + 1 * r.val = t.val * 5000 + r.val; omega
    | ⟨1, _⟩ => show win1_8.index t (1 : Fin 2) * 64 + 1 * q.val = q.val; omega
  show linRow (n := 5000) (layerMul (n := 5000) (iblk1 V c 0 t) (iblk1 V c 1 t) (iblk1 V c 2 t) (iblk1 V c 3 t) (iblk1 V c 4 t) (iblk1 V c 5 t))
      (iblk1 V c 6 t) (iblk1 V c 7 t) (ix2 r q)
    = L1 V c (((cfg1.win 8).blk t).view.emb (ix2 r q))
  rw [hemb]
  unfold L1
  refine linRow_rows (row ⟨t.val, ht⟩)
    (layerMul (n := 5000) (iblk1 V c 0 t) (iblk1 V c 1 t) (iblk1 V c 2 t) (iblk1 V c 3 t) (iblk1 V c 4 t) (iblk1 V c 5 t))
    (iblk1 V c 6 t) (iblk1 V c 7 t)
    (layerMul (n := 100000) (V c main_v26) (V c main_v38) (V c main_v12) (V c main_arg5) (V c main_v39) (V c main_arg7))
    (V c main_arg8) (V c main_v40) ?_ ?_ ?_ r q
  · intro r0 k0
    refine layerMul_rows (row ⟨t.val, ht⟩) (iblk1 V c 0 t) (iblk1 V c 1 t) (iblk1 V c 2 t) (iblk1 V c 3 t) (iblk1 V c 4 t) (iblk1 V c 5 t)
      (V c main_v26) (V c main_v38) (V c main_v12) (V c main_arg5) (V c main_v39) (V c main_arg7) ?_ ?_ ?_ ?_ ?_ ?_ r0 k0
    · intro r' k
      show V c main_v26 (((cfg1.win 0).blk t).view.emb (ix2 r' k)) = V c main_v26 (ix2 (row ⟨t.val, ht⟩ r') k)
      refine congrArg _ (funext fun a => Fin.ext ?_)
      match a with
      | ⟨0, _⟩ => show win1_0.index t (0 : Fin 2) * 5000 + 1 * r'.val = t.val * 5000 + r'.val; omega
      | ⟨1, _⟩ => show win1_0.index t (1 : Fin 2) * 64 + 1 * k.val = k.val; omega
    · intro r' k
      show V c main_v38 (((cfg1.win 1).blk t).view.emb (ix2 r' k)) = V c main_v38 (ix2 (row ⟨t.val, ht⟩ r') k)
      refine congrArg _ (funext fun a => Fin.ext ?_)
      match a with
      | ⟨0, _⟩ => show win1_1.index t (0 : Fin 2) * 5000 + 1 * r'.val = t.val * 5000 + r'.val; omega
      | ⟨1, _⟩ => show win1_1.index t (1 : Fin 2) * 64 + 1 * k.val = k.val; omega
    · intro r'
      show V c main_v12 (((cfg1.win 2).blk t).view.emb (ix2 r' (0 : Fin 1))) = V c main_v12 (ix2 (row ⟨t.val, ht⟩ r') (0 : Fin 1))
      refine congrArg _ (funext fun a => Fin.ext ?_)
      match a with
      | ⟨0, _⟩ => show win1_2.index t (0 : Fin 2) * 5000 + 1 * r'.val = t.val * 5000 + r'.val; omega
      | ⟨1, _⟩ => show win1_2.index t (1 : Fin 2) * 1 + 1 * 0 = 0; omega
    · funext i
      show V c main_arg5 (((cfg1.win 3).blk t).view.emb i) = V c main_arg5 i
      refine congrArg _ (funext fun a => Fin.ext ?_)
      match a with
      | ⟨0, _⟩ => show win1_3.index t (0 : Fin 2) * 64 + 1 * (i 0).val = (i 0).val; omega
      | ⟨1, _⟩ => show win1_3.index t (1 : Fin 2) * 64 + 1 * (i 1).val = (i 1).val; omega
    · funext i
      show V c main_v39 (((cfg1.win 4).blk t).view.emb i) = V c main_v39 i
      refine congrArg _ (funext fun a => Fin.ext ?_)
      match a with
      | ⟨0, _⟩ => show win1_4.index t (0 : Fin 2) * 1 + 1 * (i 0).val = (i 0).val; omega
      | ⟨1, _⟩ => show win1_4.index t (1 : Fin 2) * 64 + 1 * (i 1).val = (i 1).val; omega
    · funext i
      show V c main_arg7 (((cfg1.win 5).blk t).view.emb i) = V c main_arg7 i
      refine congrArg _ (funext fun a => Fin.ext ?_)
      match a with
      | ⟨0, _⟩ => show win1_5.index t (0 : Fin 2) * 64 + 1 * (i 0).val = (i 0).val; omega
      | ⟨1, _⟩ => show win1_5.index t (1 : Fin 2) * 64 + 1 * (i 1).val = (i 1).val; omega
  · funext i
    show V c main_arg8 (((cfg1.win 6).blk t).view.emb i) = V c main_arg8 i
    refine congrArg _ (funext fun a => Fin.ext ?_)
    match a with
    | ⟨0, _⟩ => show win1_6.index t (0 : Fin 2) * 64 + 1 * (i 0).val = (i 0).val; omega
    | ⟨1, _⟩ => show win1_6.index t (1 : Fin 2) * 64 + 1 * (i 1).val = (i 1).val; omega
  · funext i
    show V c main_v40 (((cfg1.win 7).blk t).view.emb i) = V c main_v40 i
    refine congrArg _ (funext fun a => Fin.ext ?_)
    match a with
    | ⟨0, _⟩ => show win1_7.index t (0 : Fin 2) * 1 + 1 * (i 0).val = (i 0).val; omega
    | ⟨1, _⟩ => show win1_7.index t (1 : Fin 2) * 64 + 1 * (i 1).val = (i 1).val; omega

/-- An index is in point `t`'s output block iff each coordinate is in the block's range. -/
theorem mem_blk1 (t : Fin cfg1.N) (i : S100000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v41).slice (win1_8.rect t)).set ↔ _
  rw [View.set_slice_whole, Rect.mem_set_unit]
  exact Iff.rfl

/-- Every row lies in the block of the point `row / 5000`. -/
theorem cover1 (i : S100000x64.Idx) : ∃ t : Fin cfg1.N, (cfg1.win 8).flush t = true ∧ i ∈ ((cfg1.win 8).blk t).view.set := by
  have hi0 : (i 0).val < 100000 := idx2_lt0 i
  have hi1 : (i 1).val < 64 := idx2_lt1 i
  let t : Fin cfg1.N := ⟨(i 0).val / 5000, by rw [show cfg1.N = 20 from N_1]; omega⟩
  obtain ⟨e80, e81, -⟩ := idx1 t
  have e80' : win1_8.index t (0 : Fin 2) = (i 0).val / 5000 := e80
  refine ⟨t, flush1_8 t, ?_⟩
  rw [mem_blk1]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 64 ≤ (i 1).val ∧ (i 1).val < win1_8.index t (1 : Fin 2) * 64 + 64; omega

/-- After the second region its output array is the final linear map of the layer of its operand arrays. -/
theorem final1 (c : Dev nD) : (dat1 V c).arrAt 8 cfg1.N = L1 V c :=
  (dat1 V c).arrAt_eq_of_cover 8 (L1 V c) (fun t _ => flushed1_eq V c t) (cover1)

end Cert.KernelIdeal.Blocks

end
-- ==== Proof.KernelRunNamed.lean ====
/-
  The idealized kernel program's run with its result NAMED.

  The program is four segments: host operations, the first layer's pipelined region, host operations, the second
  layer's region.  The buffer contents at each boundary are a fold from the launch memory (`Gen.W0 … Gen.W4`); the
  generated frame reads only the argument arrays off the last one.  Here the same run is read once more, at the result's
  buffer: after every weakly fair execution the result array holds what the last boundary's contents hold there, and
  the arguments are as launched.
-/
import proofs.«137379_j57294863728943_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument array as launched. -/
theorem run_named : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunNamed

end
-- ==== Proof.KernelValue.lean ====
/-
  The idealized kernel program's result as one function of its argument arrays.

  Host side, from the edge array `e` (two rows of 1600000 node numbers: sources and destinations):
    • the source row with negative numbers wrapped by the node count, and the destination row, each as a column;
    • `nbrSum e f`: the rows of `f` gathered at the sources, added into the destinations' rows of a zero array
      (through the narrower float format and back, which is the identity here);
    • `inv e`: one over the larger of (the number of edges arriving at a node) and one, as a column;
    • a bias vector as a row.
  The first region then computes the layer of `x`, `nbrSum e x`, `inv e` and the first weights; the host gathers and adds
  THAT array again; the second region computes the layer of it and the final linear map.  Each region's operand arrays
  are read off the host operations before it; the first region's output reaches the second unchanged.
-/
import proofs.«137379_j57294863728943_2_alg».proof.Proof.TileBlocks
import proofs.«137379_j57294863728943_2_alg».proof.Proof.KernelRunNamed
import Idealize.ShloMosaic.Lib.StableHlo.Run

set_option maxRecDepth 16384

noncomputable section

namespace Cert.KernelIdeal.Value

open Cert.KernelIdeal Cert.KernelIdeal.Gen Cert.KernelIdeal.Blocks Cert.LayerLaws
open Idealize.ShloMosaic Idealize.ShloMosaic.TcCoe Idealize.ShloMosaic.ValueIdx Idealize.SL.Sem
open Idealize.ShloMosaic.Pipeline (Dat)

/-! ## The host side's functions -/

abbrev Edges := (⟨S2x1600000, .i32⟩ : BufTy).Contents (Elt Ideal)
abbrev EdgeRow := (⟨S1600000, .i32⟩ : BufTy).Contents (Elt Ideal)
abbrev EdgeCol := (⟨S1600000x1, .i32⟩ : BufTy).Contents (Elt Ideal)
abbrev Feat := (⟨S100000x64, .f32⟩ : BufTy).Contents (Elt Ideal)
abbrev Wt := (⟨S64x64, .f32⟩ : BufTy).Contents (Elt Ideal)
abbrev Bias := (⟨S64, .f32⟩ : BufTy).Contents (Elt Ideal)

/-- Row 0 of the edge array: the sources. -/
def srcRow (e : Edges) : EdgeRow :=
  shapeCast S1600000 (extractStridedSlice S1x1600000 ![0, 0] e slices_S2x1600000_S1x1600000_0_0) shapeCasts_S1x1600000_S1600000
/-- Row 1 of the edge array: the destinations. -/
def dstRow (e : Edges) : EdgeRow :=
  shapeCast S1600000 (extractStridedSlice S1x1600000 ![1, 0] e slices_S2x1600000_S1x1600000_1_0) shapeCasts_S1x1600000_S1600000

/-- The sources with negative numbers wrapped by the node count, as a column. -/
def srcCol (s : EdgeRow) : EdgeCol :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- The destinations as a column. -/
def dstCol (d : EdgeRow) : EdgeCol := broadcastInDim S1600000x1 ![0] bcast_S1600000_S1600000x1_0 d

/-- The rows of `f` gathered at the sources and added into the destinations' rows of a zero array. -/
def nbrSumOf (s d : EdgeRow) (f : Feat) : Feat :=
  Host.scatterAdd (F := Ideal) scatter_S100000x64_S1600000x1_S1600000x64_1_0_0_1
    (broadcastInDim S100000x64 ![] bcast_S_S100000x64 (constant (F := Ideal) S_ .f32 0x00000000#32)) (dstCol d)
    (extf (F := Ideal) .f32 (Host.gather gather_S100000x64_S1600000x1_S1600000x64_1_0_n_n_0_1_164
      (truncf (F := Ideal) .bf16 f bitsLt_bf16_f32) (srcCol s)) bitsLt_bf16_f32)

/-- The larger of the number of edges arriving at each node and one. -/
def cntMaxOf (d : EdgeRow) : (⟨S100000, .f32⟩ : BufTy).Contents (Elt Ideal) :=
  maximumf (F := Ideal) (Host.scatterAdd (F := Ideal) scatter_S100000_S1600000x1_S1600000_n_0_0_1
      (broadcastInDim S100000 ![] bcast_S_S100000 (constant (F := Ideal) S_ .f32 0x00000000#32)) (dstCol d)
      (broadcastInDim S1600000 ![] bcast_S_S1600000 (constant (F := Ideal) S_ .f32 0x3F800000#32)))
    (broadcastInDim S100000 ![] bcast_S_S100000 (constant (F := Ideal) S_ .f32 0x3F800000#32))

/-- Its reciprocal, as a column. -/
def invOf (d : EdgeRow) : (⟨S100000x1, .f32⟩ : BufTy).Contents (Elt Ideal) :=
  shapeCast S100000x1 (Host.divf (F := Ideal) (broadcastInDim S100000 ![] bcast_S_S100000 (constant (F := Ideal) S_ .f32 0x3F800000#32)) (cntMaxOf d))
    shapeCasts_S100000_S100000x1

/-- A bias vector as a row. -/
def biasRow (b : Bias) : (⟨S1x64, .f32⟩ : BufTy).Contents (Elt Ideal) := shapeCast S1x64 b shapeCasts_S64_S1x64

/-- The first layer's output. -/
def hidden (x : Feat) (e : Edges) (W1l : Wt) (b1 : Bias) (W1r : Wt) : Mat 100000 64 :=
  layerMul (n := 100000) x (nbrSumOf (srcRow e) (dstRow e) x) (invOf (dstRow e)) W1l (biasRow b1) W1r

/-- The program's result. -/
def result (x : Feat) (e : Edges) (W1l : Wt) (b1 : Bias) (W1r W2l : Wt) (b2 : Bias) (W2r Wlin : Wt) (blin : Bias) : Mat 100000 64 :=
  linRow (n := 100000)
    (layerMul (n := 100000) (hidden x e W1l b1 W1r) (nbrSumOf (srcRow e) (dstRow e) (hidden x e W1l b1 W1r)) (invOf (dstRow e))
      W2l (biasRow b2) W2r)
    Wlin (biasRow blin)

variable (m : (ℓ : Loc nD τ sig) → Buf (Elt Ideal) ℓ) (ρ : Dev nD → PrngReg)

/-! ## The first region's operand arrays -/

set_option maxHeartbeats 4000000 in
theorem V1_arg0 (c : Dev nD) : V1 m ρ c main_arg0 = m ((c : Thread nD τ).loc main_arg0) := by
  show StableHlo.after hostOps0 (W0 m ρ c) (Proc.devRef .tc main_arg0) = _
  after_results_simp
set_option maxHeartbeats 4000000 in
theorem V1_arg2 (c : Dev nD) : V1 m ρ c main_arg2 = m ((c : Thread nD τ).loc main_arg2) := by
  show StableHlo.after hostOps0 (W0 m ρ c) (Proc.devRef .tc main_arg2) = _
  after_results_simp
set_option maxHeartbeats 4000000 in
theorem V1_arg4 (c : Dev nD) : V1 m ρ c main_arg4 = m ((c : Thread nD τ).loc main_arg4) := by
  show StableHlo.after hostOps0 (W0 m ρ c) (Proc.devRef .tc main_arg4) = _
  after_results_simp
set_option maxHeartbeats 4000000 in
theorem V1_v24 (c : Dev nD) : V1 m ρ c main_v24
    = nbrSumOf (srcRow (m ((c : Thread nD τ).loc main_arg1))) (dstRow (m ((c : Thread nD τ).loc main_arg1))) (m ((c : Thread nD τ).loc main_arg0)) := by
  show StableHlo.after hostOps0 (W0 m ρ c) (Proc.devRef .tc main_v24) = _
  after_results_simp
  rfl
set_option maxHeartbeats 4000000 in
theorem V1_v12 (c : Dev nD) : V1 m ρ c main_v12 = invOf (dstRow (m ((c : Thread nD τ).loc main_arg1))) := by
  show StableHlo.after hostOps0 (W0 m ρ c) (Proc.devRef .tc main_v12) = _
  after_results_simp
  rfl
set_option maxHeartbeats 4000000 in
theorem V1_v25 (c : Dev nD) : V1 m ρ c main_v25 = biasRow (m ((c : Thread nD τ).loc main_arg3)) := by
  show StableHlo.after hostOps0 (W0 m ρ c) (Proc.devRef .tc main_v25) = _
  after_results_simp
  rfl

/-- After the first region its output array is the first layer's output. -/
theorem first_out (c : Dev nD) : (dat0 (V1 m ρ) c).arrAt 6 cfg0.N
    = hidden (m ((c : Thread nD τ).loc main_arg0)) (m ((c : Thread nD τ).loc main_arg1)) (m ((c : Thread nD τ).loc main_arg2))
        (m ((c : Thread nD τ).loc main_arg3)) (m ((c : Thread nD τ).loc main_arg4)) := by
  rw [final0 (V1 m ρ) c]
  unfold L0 hidden
  rw [V1_arg0, V1_v24, V1_v12, V1_arg2, V1_v25, V1_arg4]

/-! ## The first region's exit, read at the buffers the second host stretch and the second region use -/

set_option maxHeartbeats 4000000 in
theorem W2_v1 (c : Dev nD) : W2 m ρ c (Proc.devRef .tc main_v1) = srcRow (m ((c : Thread nD τ).loc main_arg1)) :=
  (W2_of_ne m ρ c main_v1 (by decide)).trans (by
    show StableHlo.after hostOps0 (W0 m ρ c) (Proc.devRef .tc main_v1) = _
    after_results_simp
    rfl)
set_option maxHeartbeats 4000000 in
theorem W2_v3 (c : Dev nD) : W2 m ρ c (Proc.devRef .tc main_v3) = dstRow (m ((c : Thread nD τ).loc main_arg1)) :=
  (W2_of_ne m ρ c main_v3 (by decide)).trans (by
    show StableHlo.after hostOps0 (W0 m ρ c) (Proc.devRef .tc main_v3) = _
    after_results_simp
    rfl)
set_option maxHeartbeats 4000000 in
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp)
set_option maxHeartbeats 4000000 in
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp)
set_option maxHeartbeats 4000000 in
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp)
set_option maxHeartbeats 4000000 in
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp)
set_option maxHeartbeats 4000000 in
theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results_simp)

/-- The first region's output array reaches the second host stretch as written. -/
theorem W2_v26 (c : Dev nD) : W2 m ρ c (Proc.devRef .tc main_v26) = (hidden (m ((c : Thread nD τ).loc main_arg0)) (m ((c : Thread nD τ).loc main_arg1)) (m ((c : Thread nD τ).loc main_arg2))
        (m ((c : Thread nD τ).loc main_arg3)) (m ((c : Thread nD τ).loc main_arg4))) :=
  (W2_arr m ρ c 6).trans (first_out m ρ c)

/-- The scale column is an operand of the first region, which leaves it as entered. -/
theorem W2_v12 (c : Dev nD) : W2 m ρ c (Proc.devRef .tc main_v12) = invOf (dstRow (m ((c : Thread nD τ).loc main_arg1))) :=
  (W2_arr m ρ c 2).trans (((dat0 (V1 m ρ) c).arrAt_in 2 rfl _).trans ((A_eq0 (V1 m ρ) c 2).trans (V1_v12 m ρ c)))

/-! ## The second region's operand arrays -/

set_option maxHeartbeats 4000000 in
theorem V3_v26 (c : Dev nD) : V3 m ρ c main_v26 = (hidden (m ((c : Thread nD τ).loc main_arg0)) (m ((c : Thread nD τ).loc main_arg1)) (m ((c : Thread nD τ).loc main_arg2))
        (m ((c : Thread nD τ).loc main_arg3)) (m ((c : Thread nD τ).loc main_arg4))) := by
  show StableHlo.after hostOps1 (W2 m ρ c) (Proc.devRef .tc main_v26) = _
  after_results_simp
  exact W2_v26 m ρ c
set_option maxHeartbeats 4000000 in
theorem V3_v38 (c : Dev nD) : V3 m ρ c main_v38 = nbrSumOf (srcRow (m ((c : Thread nD τ).loc main_arg1))) (dstRow (m ((c : Thread nD τ).loc main_arg1))) (hidden (m ((c : Thread nD τ).loc main_arg0)) (m ((c : Thread nD τ).loc main_arg1)) (m ((c : Thread nD τ).loc main_arg2))
        (m ((c : Thread nD τ).loc main_arg3)) (m ((c : Thread nD τ).loc main_arg4))) := by
  show StableHlo.after hostOps1 (W2 m ρ c) (Proc.devRef .tc main_v38) = _
  after_results_simp
  rw [W2_v1 m ρ c, W2_v3 m ρ c, W2_v26 m ρ c]
  rfl
set_option maxHeartbeats 4000000 in
theorem V3_v12 (c : Dev nD) : V3 m ρ c main_v12 = invOf (dstRow (m ((c : Thread nD τ).loc main_arg1))) := by
  show StableHlo.after hostOps1 (W2 m ρ c) (Proc.devRef .tc main_v12) = _
  after_results_simp
  exact W2_v12 m ρ c
set_option maxHeartbeats 4000000 in
theorem V3_arg5 (c : Dev nD) : V3 m ρ c main_arg5 = m ((c : Thread nD τ).loc main_arg5) := by
  show StableHlo.after hostOps1 (W2 m ρ c) (Proc.devRef .tc main_arg5) = _
  after_results_simp
  exact W2_arg5 m ρ c
set_option maxHeartbeats 4000000 in
theorem V3_arg7 (c : Dev nD) : V3 m ρ c main_arg7 = m ((c : Thread nD τ).loc main_arg7) := by
  show StableHlo.after hostOps1 (W2 m ρ c) (Proc.devRef .tc main_arg7) = _
  after_results_simp
  exact W2_arg7 m ρ c
set_option maxHeartbeats 4000000 in
theorem V3_arg8 (c : Dev nD) : V3 m ρ c main_arg8 = m ((c : Thread nD τ).loc main_arg8) := by
  show StableHlo.after hostOps1 (W2 m ρ c) (Proc.devRef .tc main_arg8) = _
  after_results_simp
  exact W2_arg8 m ρ c
set_option maxHeartbeats 4000000 in
theorem V3_v39 (c : Dev nD) : V3 m ρ c main_v39 = biasRow (m ((c : Thread nD τ).loc main_arg6)) := by
  show StableHlo.after hostOps1 (W2 m ρ c) (Proc.devRef .tc main_v39) = _
  after_results_simp
  rw [W2_arg6 m ρ c]
  rfl
set_option maxHeartbeats 4000000 in
theorem V3_v40 (c : Dev nD) : V3 m ρ c main_v40 = biasRow (m ((c : Thread nD τ).loc main_arg9)) := by
  show StableHlo.after hostOps1 (W2 m ρ c) (Proc.devRef .tc main_v40) = _
  after_results_simp
  rw [W2_arg9 m ρ c]
  rfl

/-! ## The result -/

/-- The last boundary's contents at the result buffer: the program's result function of the launch memory's arguments. -/
theorem second_out (c : Dev nD) : W4 m ρ c (Proc.devRef .tc main_v41)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (W4_arr m ρ c 8).trans ?_
  rw [final1 (V3 m ρ) c]
  unfold L1 result
  rw [V3_v26, V3_v38, V3_v12, V3_arg5, V3_v39, V3_arg7, V3_arg8, V3_v40]

/-- Every weakly fair execution of the idealized kernel program terminates, nothing faulting, with the result array at
    `result` of the launch memory's argument arrays, and those unchanged. -/
theorem run : θ_run (defs (F := Ideal)) (onTc (τ := τ) (main (F := Ideal))) ⟨m, fun _ => 0, ρ⟩ (fun r => ∀ c : Dev nD,
      r.2.mem ((c.tc : Thread nD τ).loc main_v41)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono (fun r h c => ⟨(h c).1.trans (second_out m ρ c), (h c).2⟩)
    (Cert.KernelIdeal.RunNamed.run_named (F := Ideal) m ρ)

end Cert.KernelIdeal.Value

end
-- ==== Proof.LibLayerHost.lean ====
/-
  The host's spelling of a layer's small operands, read at an index.

  A per-node count `[a]` reaches the `[a, b]` array it divides through two broadcasts: to a column `[a, 1]`, then across
  the columns; entry `(p, k)` of the result is the count of node `p`.  A bias `[b]` reaches the `[a, b]` array it is added to
  through a row `[1, b]`, then down the rows; entry `(p, q)` of the result is the bias at `q`.
  Also the layer with its mean written as a quotient, as an array.
-/
import proofs.«137379_j57294863728943_2_alg».proof.Proof.LibLayerLaws
import Idealize.ShloMosaic.Lib.Pipeline.Value

noncomputable section

open scoped BigOperators

namespace Cert.LayerLaws

open Idealize.ShloMosaic Idealize.ShloMosaic.ValueIdx

variable {α : Type} {a b : ℕ}

/-- A vector `[a]` broadcast to a column `[a, 1]` reads, at `(p, u)`, entry `p`. -/
theorem bcast_col_apply (c : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h c (ix2 p u) = c (ix1 p) := by
  refine broadcastInDim_apply ![0] h c (ix2 p u) (ix1 p) fun ax => ?_
  match ax with
  | ⟨0, _⟩ =>
    show p.val = if a = 1 then 0 else p.val
    split
    · have := p.isLt; omega
    · rfl

/-- A column `[a, 1]` broadcast across `[a, b]` reads, at `(p, k)`, the column's entry of row `p`. -/
theorem bcast_cols_apply (v : (⟨2, ![a, 1]⟩ : Shape).Idx → α)
    (h : (⟨2, ![a, 1]⟩ : Shape).BroadcastsInDim ⟨2, ![a, b]⟩ (![0, 1] : Fin 2 → Fin 2)) (p : Fin a) (k : Fin b) :
    broadcastInDim ⟨2, ![a, b]⟩ ![0, 1] h v (ix2 p k) = v (ix2 p (0 : Fin 1)) := by
  refine broadcastInDim_apply ![0, 1] h v (ix2 p k) (ix2 p (0 : Fin 1)) fun ax => ?_
  match ax with
  | ⟨0, _⟩ =>
    show p.val = if a = 1 then 0 else p.val
    split
    · have := p.isLt; omega
    · rfl
  | ⟨1, _⟩ => rfl

/-- A vector `[b]` broadcast to a row `[1, b]` reads, at `(u, q)`, entry `q`. -/
theorem bcast_row_apply (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h v (ix2 u q) = v (ix1 q) := by
  refine broadcastInDim_apply ![1] h v (ix2 u q) (ix1 q) fun ax => ?_
  match ax with
  | ⟨0, _⟩ =>
    show q.val = if b = 1 then 0 else q.val
    split
    · have := q.isLt; omega
    · rfl

/-- A row `[1, b]` broadcast down `[a, b]` reads, at `(p, q)`, the row's entry of column `q`. -/
theorem bcast_rows_apply (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

variable {n : ℕ}

/-- The layer with its mean written as a quotient, as an array. -/
def layerDiv (x s : Mat n 64) (c : (⟨1, ![n]⟩ : Shape).Idx → EReal) (Wl : Mat 64 64) (b : (⟨1, ![64]⟩ : Shape).Idx → EReal)
    (Wr : Mat 64 64) : Mat n 64 :=
  fun i => elu1 (preDiv x s c Wl b Wr ⟨(i 0).val, idx2_lt0 i⟩ ⟨(i 1).val, idx2_lt1 i⟩)

theorem layerDiv_apply (x s : Mat n 64) (c : (⟨1, ![n]⟩ : Shape).Idx → EReal) (Wl : Mat 64 64) (b : (⟨1, ![64]⟩ : Shape).Idx → EReal)
    (Wr : Mat 64 64) (p : Fin n) (q : Fin 64) : layerDiv x s c Wl b Wr (ix2 p q) = elu1 (preDiv x s c Wl b Wr p q) := rfl

/-- The product spelling of the layer is the quotient spelling when, row by row, the scale is the reciprocal of a count
    that is not zero and the bias row is the bias vector. -/
theorem layerMul_eq_layerDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64)
    (hinv : ∀ p : Fin n, inv (ix2 p (0 : Fin 1)) = Ideal.div (Ideal.ofBits .f32 0x3F800000#32) (c (ix1 p)))
    (hc : ∀ p : Fin n, c (ix1 p) ≠ 0) (hb : ∀ q : Fin 64, b2 (ix2 (0 : Fin 1) q) = b (ix1 q)) :
    layerMul x s inv Wl b2 Wr = layerDiv x s c Wl b Wr := by
  funext i
  obtain ⟨p, q, rfl⟩ : ∃ (p : Fin n) (q : Fin 64), i = ix2 p q := ⟨i 0, i 1, eq_ix2 i⟩
  rw [layerMul_apply, layerDiv_apply, preMul_eq_preDiv x s inv c Wl b2 b Wr p q (hinv p) (hc p) (hb q)]

end Cert.LayerLaws

end
-- ==== Proof.SharedHost.lean ====
/-
  The neighbour aggregation and the arrival counts are the same host operations in both programs.

  Both programs take the edge array's two rows, wrap negative source numbers by the node count, gather the rows of a
  feature array at the sources and add them into the destinations' rows of a zero array; both count the edges arriving
  at each node by adding ones, and take the maximum with one.  The kernel program gathers through a narrower float
  format and widens again, which on the extended reals is the identity: once those two changes of format are removed
  the two spellings are the same operations on the same operands, and they are compared operand by operand, never opened.
-/
import proofs.«137379_j57294863728943_2_alg».proof.Proof.RefRun
import proofs.«137379_j57294863728943_2_alg».proof.Proof.KernelValue

noncomputable section

namespace Cert.SharedHost

open Idealize.ShloMosaic

abbrev Feat := (⟨Cert.ReferenceIdeal.S100000x64, .f32⟩ : BufTy).Contents (Elt Ideal)
abbrev Edges := (⟨Cert.ReferenceIdeal.S2x1600000, .i32⟩ : BufTy).Contents (Elt Ideal)

/-- Narrowing a float array's format is the identity on the extended reals. -/
theorem narrow_id {s : Shape} (f : FVec Ideal s .f32) (h : FTy.bf16.bits < FTy.f32.bits) :
    (truncf (F := Ideal) .bf16 f h : s.Idx → EReal) = f := rfl

/-- Widening it back is too. -/
theorem widen_id {s : Shape} (g : FVec Ideal s .bf16) (h : FTy.bf16.bits < FTy.f32.bits) :
    (extf (F := Ideal) .f32 g h : s.Idx → EReal) = g := rfl

/-- The two programs' source rows, destination rows and index columns are the same terms. -/
theorem src_eq (e : Edges) : Cert.KernelIdeal.Value.srcCol (Cert.KernelIdeal.Value.srcRow e) = Cert.ReferenceIdeal.RefRun.srcIdx (F := Ideal) e := rfl
theorem dst_eq (e : Edges) : Cert.KernelIdeal.Value.dstCol (Cert.KernelIdeal.Value.dstRow e) = Cert.ReferenceIdeal.RefRun.dstIdx (F := Ideal) e := rfl

/-- The two programs' dimension records for the gather and the two additions are the same records. -/
theorem gather_dims_eq : Cert.KernelIdeal.gather_S100000x64_S1600000x1_S1600000x64_1_0_n_n_0_1_164
    = Cert.ReferenceIdeal.gather_S100000x64_S1600000x1_S1600000x64_1_0_n_n_0_1_164 := rfl
theorem scatter_rows_dims_eq : Cert.KernelIdeal.scatter_S100000x64_S1600000x1_S1600000x64_1_0_0_1
    = Cert.ReferenceIdeal.scatter_S100000x64_S1600000x1_S1600000x64_1_0_0_1 := rfl
theorem scatter_count_dims_eq : Cert.KernelIdeal.scatter_S100000_S1600000x1_S1600000_n_0_0_1
    = Cert.ReferenceIdeal.scatter_S100000_S1600000x1_S1600000_n_0_0_1 := rfl

/-- The larger of the arrival count and one is the same array in both programs. -/
theorem cnt_eq (e : Edges) :
    Cert.KernelIdeal.Value.cntMaxOf (Cert.KernelIdeal.Value.dstRow e) = Cert.ReferenceIdeal.RefRun.cntMax (F := Ideal) e := by
  unfold Cert.KernelIdeal.Value.cntMaxOf Cert.ReferenceIdeal.RefRun.cntMax
  rw [dst_eq, scatter_count_dims_eq]

/-- The neighbour sums of a feature array are the same array in both programs. -/
theorem nbr_eq (e : Edges) (f : Feat) :
    Cert.KernelIdeal.Value.nbrSumOf (Cert.KernelIdeal.Value.srcRow e) (Cert.KernelIdeal.Value.dstRow e) f
      = Cert.ReferenceIdeal.RefRun.nbrSum (F := Ideal) e f := by
  unfold Cert.KernelIdeal.Value.nbrSumOf Cert.ReferenceIdeal.RefRun.nbrSum Cert.ReferenceIdeal.RefRun.zeros
  rw [widen_id, narrow_id, src_eq, dst_eq, gather_dims_eq, scatter_rows_dims_eq]

end Cert.SharedHost

end
-- ==== Proof.Bridge.lean ====
/-
  The two programs compute one function.

  Reference side.  A layer is  elu(conv)  with
      conv(p,q) = (∑ₖ (s(p,k) / c(p)) · Wl(k,q)) + b(q) + ∑ₖ f(p,k) · Wr(k,q),
  `s` the neighbour sums of `f`, `c` the larger of the arrival count and one; the host's matrix product at `(p, q)` is
  the sum over the inner coordinate, its two broadcasts of `c` and of `b` read `c(p)` and `b(q)`, and its exponential-linear
  unit "select (v > 0) v (1 · expm1 (select (v > 0) 0 v))" is `elu`.
  Kernel side.  The same layer with the mean written `s(p,k) · (1 / c(p))` and the bias as a row: the count is at least
  one, so it is not zero and the product with the reciprocal is the quotient.
  The neighbour sums and the counts are the SAME host operations on both sides (the kernel program's passes through a
  narrower float format and back, the identity on the extended reals), so they are never opened: every entry-by-entry
  statement here is over plain arrays, and is applied to them as they stand.
-/
import proofs.«137379_j57294863728943_2_alg».proof.Proof.RefRun
import proofs.«137379_j57294863728943_2_alg».proof.Proof.KernelValue
import proofs.«137379_j57294863728943_2_alg».proof.Proof.LibLayerHost
import proofs.«137379_j57294863728943_2_alg».proof.Proof.SharedHost
import proofs.«137379_j57294863728943_2_alg».proof.Proof.LibRowLayout
import Idealize.ShloMosaic.Lib.ValueLayout

noncomputable section

open scoped BigOperators

namespace Cert.Bridge

open Cert.LayerLaws Cert.RowLayout
open Idealize.ShloMosaic Idealize.ShloMosaic.ValueIdx

abbrev Feat := (⟨Cert.ReferenceIdeal.S100000x64, .f32⟩ : BufTy).Contents (Elt Ideal)
abbrev Edges := (⟨Cert.ReferenceIdeal.S2x1600000, .i32⟩ : BufTy).Contents (Elt Ideal)
abbrev Wt := (⟨Cert.ReferenceIdeal.S64x64, .f32⟩ : BufTy).Contents (Elt Ideal)
abbrev Bias := (⟨Cert.ReferenceIdeal.S64, .f32⟩ : BufTy).Contents (Elt Ideal)

/-! ## The reference's layer, entry by entry (over plain arrays) -/

/-- The reference's matrix product's dimension record. -/
abbrev DR : DotDims Cert.ReferenceIdeal.S100000x64 Cert.ReferenceIdeal.S64x64 Cert.ReferenceIdeal.S100000x64 :=
  Cert.ReferenceIdeal.dot_S100000x64_S64x64_S100000x64_1_0_0_1_n_n

/-- The host's product `[100000, 64] × [64, 64]` at `(p, q)`: the sum over the inner coordinate. -/
theorem ref_dot_apply (lhs : FVec Ideal Cert.ReferenceIdeal.S100000x64 .f32) (rhs : FVec Ideal Cert.ReferenceIdeal.S64x64 .f32)
    (p : Fin 100000) (q : Fin 64) :
    Host.dotGeneral (F := Ideal) DR none lhs rhs (ix2 p q) = ∑ k : Fin 64, lhs (ix2 p k) * rhs (ix2 k q) :=
  (Ideal.dotGeneral_apply DR none .single lhs rhs (ix2 p q)).trans
    (sum_inner (a := 100000) (k := 64) (b := 64) DR rfl rfl (fun _ _ => rfl) (fun _ _ => rfl) (fun _ _ => rfl) (fun _ _ => rfl) lhs rhs p q)

/-- The host's spelling of a layer before its activation, over ANY neighbour sums `s` and counts `cm`. -/
def convOf (s f : Feat) (cm : FVec Ideal Cert.ReferenceIdeal.S100000 .f32) (Wl : Wt) (b : Bias) (Wr : Wt) : Feat :=
  addf (F := Ideal) (addf (F := Ideal) (Host.dotGeneral (F := Ideal) (φ₁ := .f32) (φ₂ := .f32) DR none
      (Host.divf (F := Ideal) s (broadcastInDim Cert.ReferenceIdeal.S100000x64 ![0, 1] Cert.ReferenceIdeal.Facts₀.bcast_S100000x1_S100000x64_0_1
        (broadcastInDim Cert.ReferenceIdeal.S100000x1 ![0] Cert.ReferenceIdeal.Facts₀.bcast_S100000_S100000x1_0 cm))) Wl)
    (broadcastInDim Cert.ReferenceIdeal.S100000x64 ![0, 1] Cert.ReferenceIdeal.Facts₀.bcast_S1x64_S100000x64_0_1
      (broadcastInDim Cert.ReferenceIdeal.S1x64 ![1] Cert.ReferenceIdeal.Facts₀.bcast_S64_S1x64_1 b)))
    (Host.dotGeneral (F := Ideal) (φ₁ := .f32) (φ₂ := .f32) DR none f Wr)

/-- At `(p, q)` it is the quotient-spelled sum. -/
theorem convOf_apply (s f : Feat) (cm : FVec Ideal Cert.ReferenceIdeal.S100000 .f32) (Wl : Wt) (b : Bias) (Wr : Wt) (p : Fin 100000) (q : Fin 64) :
    convOf s f cm Wl b Wr (ix2 p q) = preDiv (n := 100000) f s cm Wl b Wr p q := by
  unfold convOf preDiv
  rw [addf_apply, addf_apply, ref_dot_apply, ref_dot_apply, bcast_rows_apply, bcast_row_apply]
  refine congrArg (· + _) (congrArg (· + _) (Finset.sum_congr rfl fun k _ => ?_))
  refine congrArg (· * _) ?_
  show Ideal.div (s (ix2 p k)) _ = _
  rw [bcast_cols_apply, bcast_col_apply]

/-- The host's exponential-linear unit of ANY array, entry by entry. -/
theorem ref_elu_apply (v : Feat) (i : Cert.ReferenceIdeal.S100000x64.Idx) : Cert.ReferenceIdeal.RefRun.elu (F := Ideal) v i = elu1 (v i) :=
  elu_expm1_form (v i)

/-- The reference's layer is the quotient-spelled layer of `f`, its neighbour sums and the counts. -/
theorem ref_layer (e : Edges) (f : Feat) (Wl : Wt) (b : Bias) (Wr : Wt) :
    Cert.ReferenceIdeal.RefRun.elu (F := Ideal) (Cert.ReferenceIdeal.RefRun.conv (F := Ideal) e f Wl b Wr)
      = layerDiv (n := 100000) f (Cert.ReferenceIdeal.RefRun.nbrSum (F := Ideal) e f) (Cert.ReferenceIdeal.RefRun.cntMax (F := Ideal) e) Wl b Wr := by
  have hc : Cert.ReferenceIdeal.RefRun.conv (F := Ideal) e f Wl b Wr
      = convOf (Cert.ReferenceIdeal.RefRun.nbrSum (F := Ideal) e f) f (Cert.ReferenceIdeal.RefRun.cntMax (F := Ideal) e) Wl b Wr := by
    unfold Cert.ReferenceIdeal.RefRun.conv convOf
    rfl
  rw [hc]
  funext i
  obtain ⟨p, q, rfl⟩ : ∃ (p : Fin 100000) (q : Fin 64), i = ix2 p q := ⟨i 0, i 1, eq_ix2 i⟩
  rw [ref_elu_apply, layerDiv_apply, convOf_apply]

/-! ## The kernel program's layer in the quotient spelling -/

/-- The reciprocal column of ANY count array `cm`, read at row `p`. -/
theorem inv_col_apply (cm : FVec Ideal Cert.KernelIdeal.S100000 .f32) (p : Fin 100000) :
    shapeCast Cert.KernelIdeal.S100000x1 (Host.divf (F := Ideal)
        (broadcastInDim Cert.KernelIdeal.S100000 ![] Cert.KernelIdeal.Facts₀.bcast_S_S100000 (constant (F := Ideal) Cert.KernelIdeal.S_ .f32 0x3F800000#32)) cm)
      Cert.KernelIdeal.Facts₀.shapeCasts_S100000_S100000x1 (ix2 p (0 : Fin 1))
      = Ideal.div (Ideal.ofBits .f32 0x3F800000#32) (cm (ix1 p)) := by
  rw [shapeCast_a_a1_apply]
  rfl

/-- The maximum of ANY array with one is nowhere zero. -/
theorem max_one_apply_ne_zero (A : FVec Ideal Cert.KernelIdeal.S100000 .f32) (p : Fin 100000) :
    maximumf (F := Ideal) A
      (broadcastInDim Cert.KernelIdeal.S100000 ![] Cert.KernelIdeal.Facts₀.bcast_S_S100000 (constant (F := Ideal) Cert.KernelIdeal.S_ .f32 0x3F800000#32)) (ix1 p) ≠ 0 :=
  max_one_ne_zero (A (ix1 p))

theorem kernel_layer (s d : Cert.KernelIdeal.Value.EdgeRow) (f : Feat) (Wl : Wt) (b : Bias) (Wr : Wt) :
    layerMul (n := 100000) f (Cert.KernelIdeal.Value.nbrSumOf s d f) (Cert.KernelIdeal.Value.invOf d) Wl (Cert.KernelIdeal.Value.biasRow b) Wr
      = layerDiv (n := 100000) f (Cert.KernelIdeal.Value.nbrSumOf s d f) (Cert.KernelIdeal.Value.cntMaxOf d) Wl b Wr := by
  refine layerMul_eq_layerDiv f (Cert.KernelIdeal.Value.nbrSumOf s d f) (Cert.KernelIdeal.Value.invOf d) (Cert.KernelIdeal.Value.cntMaxOf d) Wl (Cert.KernelIdeal.Value.biasRow b) b Wr
    (fun p => ?_) (fun p => ?_) (fun q => ?_)
  · unfold Cert.KernelIdeal.Value.invOf
    exact inv_col_apply (Cert.KernelIdeal.Value.cntMaxOf d) p
  · unfold Cert.KernelIdeal.Value.cntMaxOf
    exact max_one_apply_ne_zero _ p
  · unfold Cert.KernelIdeal.Value.biasRow
    exact shapeCast_a_1a_apply b _ (0 : Fin 1) q

/-! ## The results -/

/-- The reference's last step is the final linear map with the bias as a row. -/
theorem ref_final (h : Feat) (W : Wt) (b : Bias) :
    linRow (n := 100000) h W (Cert.KernelIdeal.Value.biasRow b)
      = addf (F := Ideal) (Host.dotGeneral (F := Ideal) (φ₁ := .f32) (φ₂ := .f32) DR none h W)
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1 b)) := by
  funext i
  obtain ⟨p, q, rfl⟩ : ∃ (p : Fin 100000) (q : Fin 64), i = ix2 p q := ⟨i 0, i 1, eq_ix2 i⟩
  rw [linRow_apply, addf_apply, ref_dot_apply, bcast_rows_apply, bcast_row_apply]
  unfold Cert.KernelIdeal.Value.biasRow
  rw [shapeCast_a_1a_apply]

/-- The idealized kernel program and the idealized reference compute one function of their arguments. -/
theorem result_eq (x : Feat) (e : Edges) (W1l : Wt) (b1 : Bias) (W1r W2l : Wt) (b2 : Bias) (W2r Wlin : Wt) (blin : Bias) :
    Cert.KernelIdeal.Value.result x e W1l b1 W1r W2l b2 W2r Wlin blin = Cert.ReferenceIdeal.RefRun.result (F := Ideal) x e W1l b1 W1r W2l b2 W2r Wlin blin := by
  unfold Cert.KernelIdeal.Value.result Cert.KernelIdeal.Value.hidden
  rw [kernel_layer (Cert.KernelIdeal.Value.srcRow e) (Cert.KernelIdeal.Value.dstRow e) x W1l b1 W1r, Cert.SharedHost.nbr_eq e x, Cert.SharedHost.cnt_eq e,
    ← ref_layer e x W1l b1 W1r]
  rw [kernel_layer (Cert.KernelIdeal.Value.srcRow e) (Cert.KernelIdeal.Value.dstRow e) _ W2l b2 W2r, Cert.SharedHost.nbr_eq e _, Cert.SharedHost.cnt_eq e,
    ← ref_layer e _ W2l b2 W2r]
  exact ref_final _ Wlin blin

end Cert.Bridge

end
-- ==== Proof.lean ====
/-
  A two-layer mean-aggregation graph network — each layer  elu(mean of the neighbours' rows · Wl + b + own row · Wr),
  then a final linear map — computed by a program of two row-tiled pipelined kernels among host operations, against a
  plain host program.

  On the extended reals both compute one function of their arguments.  The neighbour sums (rows gathered at the edges'
  sources, added into the destinations' rows) and the arrival counts are the same host operations in both programs and
  are never opened.  What differs, and why it does not matter:
    • the kernel program multiplies the sums by 1 / max(count, 1) where the reference divides by max(count, 1): that
      maximum is at least one, so it is not zero, and a quotient by a non-zero `c` is the product with `c⁻¹ = 1 / c`;
    • the kernels write elu as  select (y > 0) y (exp (min y 0) − 1),  the reference as
      select (y > 0) y (1 · expm1 (select (y > 0) 0 y)):  off the positive side `min y 0 = y`, and `expm1 z = eᶻ − 1`;
    • the kernels' matrix products run tile by tile (5000 rows at a time) into a zero accumulator and the second kernel
      fuses the final linear map: a layer is computed row by row, so the tiles of the layer are the layers of the tiles,
      and the twenty tiles cover the hundred thousand rows;
    • changes of float format are the identity.
  No step distributes a product over a sum or cancels, so no entry has to be finite: the precondition is not opened.

  The three programs' frames: the two kernel programs' are the generated ones; the reference's is its run with the
  result dropped.  The idealization rewrote nothing, so there is nothing to preserve.
-/
import proofs.«137379_j57294863728943_2_alg».proof.Defs
import proofs.«137379_j57294863728943_2_alg».proof.Proof.Gen.Kernel
import proofs.«137379_j57294863728943_2_alg».proof.Proof.Gen.Kernel.Frame
import proofs.«137379_j57294863728943_2_alg».proof.Proof.Gen.KernelIdeal
import proofs.«137379_j57294863728943_2_alg».proof.Proof.Gen.KernelIdeal.Frame
import proofs.«137379_j57294863728943_2_alg».proof.Proof.Gen.ReferenceIdeal
import proofs.«137379_j57294863728943_2_alg».proof.Proof.Gen.Pre_finite_inputs
import proofs.«137379_j57294863728943_2_alg».proof.Proof.Bridge
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories agreeing on the arguments both idealized programs run, and end with the same result array. -/
theorem algebraic : Cert.algebraic_KernelIdeal_ReferenceIdeal := by
  intro m ρ m' ρ' _ hagree
  refine ⟨fun c => Cert.KernelIdeal.Value.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.Value.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9⟩ := hagree c
  rw [h0, h1, h2, h3, h4, h5, h6, h7, h8, h9]
  exact (Cert.Bridge.result_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
